-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x64 : Shape := ⟨2, ![1024, 64]⟩
abbrev S64 : Shape := ⟨1, ![64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S1024x64 .f32) (main_arg5 : FVec F S64 .f32) (main_arg6 : FVec F S1024x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1024x64 .f32 := Host.absf main_arg4
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1024x64 .f32 := Host.absf main_arg6
  let main_cst_10 : FVec F S_ .f32 := constant S_ .f32 0x7F800000#32
  let main_v30 : FVec F S1024x64 .f32 := broadcastInDim S1024x64 ![] bcast_S_S1024x64 main_cst_10
  let main_v31 : IVec S1024x64 1 := cmpf .olt main_v29 main_v30
  let main_c_11 : IVec S_ 1 := constantI S_ 1 1#1
  let main_v32 : IVec S_ 1 := (fun x v => Host.reduce IntOp.andi x v reducesTo_S1024x64_S_d0_1 h_S_) main_v31 main_c_11
  let main_v33 : IVec S_ 1 := andi main_v28 main_v32
  fn_part2 (F := F) main_arg7 main_v33

def fn {F : FTy → Type} [FloatOps F] (main_arg0 : FVec F S8x2048x1024 .f32) (main_arg1 : FVec F S8x2048x1024 .f32) (main_arg2 : FVec F S1024x64 .f32) (main_arg3 : FVec F S64 .f32) (main_arg4 : FVec F S1024x64 .f32) (main_arg5 : FVec F S64 .f32) (main_arg6 : FVec F S1024x64 .f32) (main_arg7 : FVec F S64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S8x2048x1024 : Shape := ⟨3, ![8, 2048, 1024]⟩
abbrev S1024x64 : Shape := ⟨2, ![1024, 64]⟩
abbrev S64 : Shape := ⟨1, ![64]⟩
abbrev S1024x128 : Shape := ⟨2, ![1024, 128]⟩
abbrev S128 : Shape := ⟨1, ![128]⟩
abbrev S8x2048x64 : Shape := ⟨3, ![8, 2048, 64]⟩
abbrev S1x2048x1024 : Shape := ⟨3, ![1, 2048, 1024]⟩
abbrev S1x256x1024 : Shape := ⟨3, ![1, 256, 1024]⟩
abbrev S1x256x64 : Shape := ⟨3, ![1, 256, 64]⟩
abbrev S2048x128 : Shape := ⟨2, ![2048, 128]⟩
abbrev S2048x1024 : Shape := ⟨2, ![2048, 1024]⟩
abbrev S1x128 : Shape := ⟨2, ![1, 128]⟩
abbrev S256x1024 : Shape := ⟨2, ![256, 1024]⟩
abbrev S256x64 : Shape := ⟨2, ![256, 64]⟩
abbrev S1x64 : Shape := ⟨2, ![1, 64]⟩
abbrev S2048x64 : Shape := ⟨2, ![2048, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x64, .f32⟩
  | .hbm, ⟨3, _⟩ => ⟨S64, .f32⟩
  | .hbm, ⟨4, _⟩ => ⟨S1024x64, .f32⟩
  | .hbm, ⟨5, _⟩ => ⟨S64, .f32⟩
  | .hbm, ⟨6, _⟩ => ⟨S1024x64, .f32⟩
  | .hbm, ⟨7, _⟩ => ⟨S64, .f32⟩
  | .hbm, ⟨8, _⟩ => ⟨S1024x128, .f32⟩
  | .hbm, ⟨9, _⟩ => ⟨S128, .f32⟩
  | .hbm, ⟨10, _⟩ => ⟨S8x2048x64, .f32⟩
  | .local _ .vmem, ⟨0, _⟩ => ⟨S1x2048x1024, .f32⟩
  | .local _ .vmem, ⟨1, _⟩ => ⟨S1x2048x1024, .f32⟩
  | .local _ .vmem, ⟨2, _⟩ => ⟨S1x256x1024, .f32⟩
  | .local _ .vmem, ⟨3, _⟩ => ⟨S1x256x1024, .f32⟩
  | .local _ .vmem, ⟨4, _⟩ => ⟨S1024x64, .f32⟩
  | .local _ .vmem, ⟨5, _⟩ => ⟨S64, .f32⟩
  | .local _ .vmem, ⟨6, _⟩ => ⟨S1024x128, .f32⟩
  | .local _ .vmem, ⟨7, _⟩ => ⟨S128, .f32⟩
  | .local _ .vmem, ⟨8, _⟩ => ⟨S1x256x64, .f32⟩
  | .local _ .vmem, ⟨9, _⟩ => ⟨S1x256x64, .f32⟩
  | .local _ .vmem, ⟨10, _⟩ => ⟨S2048x128, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  concatenates_S1024x64_S1024x64_S1024x128_d1 : Shape.Concatenates [S1024x64, S1024x64] S1024x128 1
  concatenates_S64_S64_S128_d0 : Shape.Concatenates [S64, S64] S128 0
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x64_S1024x64_0_0 : ∀ a, (![0, 0] : Fin 2 → Nat) a + S1024x64.size a ≤ S1024x64.size a
  h_S1024x64 : 0 < S1024x64.numel
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  slices_S2048x128_o0_0_S2048x64 : S2048x128.Slices ![0, 0] S2048x64
  slices_S2048x128_o0_64_S2048x64 : S2048x128.Slices ![0, 64] S2048x64
  transposes_S2048x64_p1_0_S64x2048 : S2048x64.Transposes [1, 0] S64x2048
  iota_S256x2048_d0_w32 : S256x2048.Iotas .tc 32 [0]
  iota_S256x2048_d1_w32 : S256x2048.Iotas .tc 32 [1]
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  dot_S2048x1024_S1024x128_S2048x128_1_0_0_1_n_n_wf : DotDims.WF S2048x1024 S1024x128 S2048x128 [1] [0] [0] [1] [] []
  dot_S256x1024_S1024x64_S256x64_1_0_0_1_n_n_wf : DotDims.WF S256x1024 S1024x64 S256x64 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S8x2048x1024.size a
  hwx0_1 : ∀ i : grid0.Coords, EltTy.bits .f32 = 32 ∨ (Rect.block (s := S8x2048x1024) S1x256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .f32 = 32 ∨ (Rect.block (s := S1024x128) S1024x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x64.size a ≤ S8x2048x64.size a
  hwx0_6 : ∀ i : grid0.Coords, EltTy.bits .f32 = 32 ∨ (Rect.block (s := S8x2048x64) S1x256x64.size (cc0_transform_6 i) (hinb0_6 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x64 : Shape := ⟨2, ![1024, 64]⟩
abbrev S64 : Shape := ⟨1, ![64]⟩
abbrev S8x2048x64 : Shape := ⟨3, ![8, 2048, 64]⟩
abbrev S1x1x64 : Shape := ⟨3, ![1, 1, 64]⟩
abbrev S_ : Shape := ⟨0, ![]⟩
abbrev S8x2048x2048 : Shape := ⟨3, ![8, 2048, 2048]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x64, .f32⟩
  | .hbm, ⟨3, _⟩ => ⟨S64, .f32⟩
  | .hbm, ⟨4, _⟩ => ⟨S1024x64, .f32⟩
  | .hbm, ⟨5, _⟩ => ⟨S64, .f32⟩
  | .hbm, ⟨6, _⟩ => ⟨S1024x64, .f32⟩
  | .hbm, ⟨7, _⟩ => ⟨S64, .f32⟩
  | .hbm, ⟨8, _⟩ => ⟨S8x2048x64, .f32⟩
  | .hbm, ⟨9, _⟩ => ⟨S1x1x64, .f32⟩
  | .hbm, ⟨10, _⟩ => ⟨S8x2048x64, .f32⟩
  | .hbm, ⟨11, _⟩ => ⟨S8x2048x64, .f32⟩
  | .hbm, ⟨12, _⟩ => ⟨S8x2048x64, .f32⟩
  | .hbm, ⟨13, _⟩ => ⟨S1x1x64, .f32⟩
  | .hbm, ⟨14, _⟩ => ⟨S8x2048x64, .f32⟩
  | .hbm, ⟨15, _⟩ => ⟨S8x2048x64, .f32⟩
  | .hbm, ⟨16, _⟩ => ⟨S8x2048x64, .f32⟩
  | .hbm, ⟨17, _⟩ => ⟨S1x1x64, .f32⟩
  | .hbm, ⟨18, _⟩ => ⟨S8x2048x64, .f32⟩
  | .hbm, ⟨19, _⟩ => ⟨S8x2048x64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S2048x2048, .i32⟩
  | .hbm, ⟨28, _⟩ => ⟨S_, .i32⟩
  | .hbm, ⟨29, _⟩ => ⟨S2048x2048, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S8x2048x2048, .i1⟩
  | .hbm, ⟨34, _⟩ => ⟨S_, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S_, .f32⟩
  | .hbm, ⟨40, _⟩ => ⟨S8x2048, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S8x2048x2048, .f32⟩
  | .hbm, ⟨50, _⟩ => ⟨S8x2048x2048, .f32⟩
  | .hbm, ⟨51, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_cst : Ref sig .tc := ⟨.hbm, 34, rfl⟩
abbrev main_call0_v6 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x64_S8x2048x64_2_0_01_1_n_n_wf : DotDims.WF S8x2048x1024 S1024x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.KernelPieces.lean ====
/-
  What one run of the kernel body leaves behind, as values of what it loaded.

  The body has two cases. At the first query tile of a batch it first projects the whole sequence of the batch to
  keys and values (one matrix product with the two weight matrices side by side, plus the two biases side by side)
  and keeps the result in a buffer that lives across the grid points; at the other query tiles it finds that buffer
  as the point before left it. In both cases it then computes the output tile from the query rows, the query
  weights and bias, and that buffer. Each of the three statements below says that the buffer a case writes holds,
  after the case's single store that covers it, the store's value as one function of the blocks the body loaded.
-/
import proofs.«108188_j14173392077129_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- At a batch's first query tile the carried buffer ends holding the projection of the batch's whole sequence. -/
theorem scratch_A (c : Dev nD) (i : grid0.Coords) (arg2 : Memref sig .tc .vmem S1x2048x1024 .f32) (harg2 : arg2.IsWhole) (arg3 : Memref sig .tc .vmem S1x256x1024 .f32) (harg3 : arg3.IsWhole) (arg4 : Memref sig .tc .vmem S1024x64 .f32) (harg4 : arg4.IsWhole) (arg5 : Memref sig .tc .vmem S64 .f32) (harg5 : arg5.IsWhole) (arg6 : Memref sig .tc .vmem S1024x128 .f32) (harg6 : arg6.IsWhole) (arg7 : Memref sig .tc .vmem S128 .f32) (harg7 : arg7.IsWhole) (arg8 : Memref sig .tc .vmem S1x256x64 .f32) (harg8 : arg8.IsWhole) (arg9 : Memref sig .tc .vmem S2048x128 .bf16) (harg9 : arg9.IsWhole) (hc0 : cond0_0 i)
    (x0 : Vec F S1x2048x1024 .f32) (x1 : Vec F S1x256x1024 .f32) (x2 : Vec F S1024x64 .f32) (x3 : Vec F S64 .f32) (x4 : Vec F S1024x128 .f32) (x5 : Vec F S128 .f32) :
    sout0_A_0 c i arg2 harg2 arg3 harg3 arg4 harg4 arg5 harg5 arg6 harg6 arg7 harg7 arg8 harg8 arg9 harg9 hc0 x0 x1 x2 x3 x4 x5 = k0_pay2 x0 x4 x5 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz2]
  simp only [View.readAt_eq_ld, harg2.read_unread, harg6.read_unread, harg7.read_unread,
    View.ld_unit_zero (S := S1x2048x1024) hz3, View.ld_unit_zero (S := S1024x128) hz2, View.ld_unit_zero (S := S128) hz1]

/-- At any other query tile the output tile is computed from the query block and the carried buffer as found. -/
theorem out_B (c : Dev nD) (i : grid0.Coords) (arg2 : Memref sig .tc .vmem S1x2048x1024 .f32) (harg2 : arg2.IsWhole) (arg3 : Memref sig .tc .vmem S1x256x1024 .f32) (harg3 : arg3.IsWhole) (arg4 : Memref sig .tc .vmem S1024x64 .f32) (harg4 : arg4.IsWhole) (arg5 : Memref sig .tc .vmem S64 .f32) (harg5 : arg5.IsWhole) (arg6 : Memref sig .tc .vmem S1024x128 .f32) (harg6 : arg6.IsWhole) (arg7 : Memref sig .tc .vmem S128 .f32) (harg7 : arg7.IsWhole) (arg8 : Memref sig .tc .vmem S1x256x64 .f32) (harg8 : arg8.IsWhole) (arg9 : Memref sig .tc .vmem S2048x128 .bf16) (harg9 : arg9.IsWhole) (hc0 : ¬cond0_0 i)
    (x0 : Vec F S1x2048x1024 .f32) (x1 : Vec F S1x256x1024 .f32) (x2 : Vec F S1024x64 .f32) (x3 : Vec F S64 .f32) (x4 : Vec F S1024x128 .f32) (x5 : Vec F S128 .f32) (xs0 : Vec F S2048x128 .bf16) :
    out0_B_6 c i arg2 harg2 arg3 harg3 arg4 harg4 arg5 harg5 arg6 harg6 arg7 harg7 arg8 harg8 arg9 harg9 hc0 x0 x1 x2 x3 x4 x5 xs0 = k0_pay1 (k0_pay4 i x1 x2 x3 xs0) (k0_pay5 i x1 x2 x3 xs0) := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  sl_unfold_words
  rw [View.canon_unit_zero hz3]
  simp only [View.readAt_eq_ld, harg3.read_unread, harg4.read_unread, harg5.read_unread, harg9.read_unread,
    View.ld_unit_zero (S := S1x256x1024) hz3, View.ld_unit_zero (S := S1024x64) hz2, View.ld_unit_zero (S := S64) hz1,
    View.ld_unit_zero (S := S2048x128) hz2]

/-- At a batch's first query tile the output tile is computed from the query block and the projection just stored. -/
theorem out_A (c : Dev nD) (i : grid0.Coords) (arg2 : Memref sig .tc .vmem S1x2048x1024 .f32) (harg2 : arg2.IsWhole) (arg3 : Memref sig .tc .vmem S1x256x1024 .f32) (harg3 : arg3.IsWhole) (arg4 : Memref sig .tc .vmem S1024x64 .f32) (harg4 : arg4.IsWhole) (arg5 : Memref sig .tc .vmem S64 .f32) (harg5 : arg5.IsWhole) (arg6 : Memref sig .tc .vmem S1024x128 .f32) (harg6 : arg6.IsWhole) (arg7 : Memref sig .tc .vmem S128 .f32) (harg7 : arg7.IsWhole) (arg8 : Memref sig .tc .vmem S1x256x64 .f32) (harg8 : arg8.IsWhole) (arg9 : Memref sig .tc .vmem S2048x128 .bf16) (harg9 : arg9.IsWhole) (hc0 : cond0_0 i)
    (x0 : Vec F S1x2048x1024 .f32) (x1 : Vec F S1x256x1024 .f32) (x2 : Vec F S1024x64 .f32) (x3 : Vec F S64 .f32) (x4 : Vec F S1024x128 .f32) (x5 : Vec F S128 .f32) :
    out0_A_6 c i arg2 harg2 arg3 harg3 arg4 harg4 arg5 harg5 arg6 harg6 arg7 harg7 arg8 harg8 arg9 harg9 hc0 x0 x1 x2 x3 x4 x5
      = k0_pay1 (k0_pay4 i x1 x2 x3 (k0_pay2 x0 x4 x5)) (k0_pay5 i x1 x2 x3 (k0_pay2 x0 x4 x5)) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz3]
  simp only [View.readCov_unit_zero (S := S2048x128) _ hz2, View.readAt_eq_ld, harg2.read_unread, harg3.read_unread,
    harg4.read_unread, harg5.read_unread, harg6.read_unread, harg7.read_unread,
    View.ld_unit_zero (S := S1x2048x1024) hz3, View.ld_unit_zero (S := S1024x128) hz2, View.ld_unit_zero (S := S128) hz1,
    View.ld_unit_zero (S := S1x256x1024) hz3, View.ld_unit_zero (S := S1024x64) hz2, View.ld_unit_zero (S := S64) hz1]

end Cert.KernelIdeal.Pieces

end
-- ==== Proof.KernelBlocks.lean ====
/-
  Where the kernel's blocks sit in the arrays.

  The grid has 64 points; point `t` works on batch `t / 8` and on query tile `t % 8`. Its blocks are: the batch's whole
  sequence of `x` (rows 0..2047), rows `256 · (t % 8) ..` of the batch of `y`, the whole of the query weights and
  bias, the whole of the key and value weights laid side by side (columns 0..63 the keys', 64..127 the values') and of
  their biases laid end to end, and, for the result, rows `256 · (t % 8) ..` of the batch. A block's entry at local
  coordinates is the array's entry at block index × block size + local coordinate on every axis; the block indices
  are decided once over the 64 points. The two side-by-side arrays are concatenations the host makes before the
  kernel runs, read here at an index on either side of the seam.
-/
import proofs.«108188_j14173392077129_2_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) = t.val / 8 ∧ win0_6.index t (1 : Fin 3) = t.val % 8 ∧ win0_6.index t (2 : Fin 3) = 0
    ∧ ((grid0.coords t) 1).val = t.val % 8 :=
  (by decide +kernel : ∀ t : Fin grid0.N, _)

theorem iblk1_apply (c : Dev nD) (t : Fin cfg0.N) (r : Fin 256) (e : Fin 1024) (n : Fin 8) (R : Fin 2048)
    (hn : n.val = t.val / 8) (hR : R.val = (t.val % 8) * 256 + r.val) :
    (iblk m c 1 t : Vec F S1x256x1024 .f32) (ix3 (0 : Fin 1) r e) = V m c main_arg1 (ix3 n R e) := by
  unfold iblk
  rw [View.read_apply]
  show V m c main_arg1 _ = V m c main_arg1 _
  congr 1
  obtain ⟨-, -, -, e0, e1, e2, -⟩ := idx_facts t
  funext a; apply Fin.ext
  match a with
  | ⟨0, _⟩ => show win0_1.index t (0 : Fin 3) * 1 + 1 * 0 = n.val; omega
  | ⟨1, _⟩ => show win0_1.index t (1 : Fin 3) * 256 + 1 * r.val = R.val; omega
  | ⟨2, _⟩ => show win0_1.index t (2 : Fin 3) * 1024 + 1 * e.val = e.val; omega

theorem V_v0 (c : Dev nD) : (V m c main_v0 : S1024x128.Idx → Elt F .f32)
    = concatenate S1024x128 1 [⟨S1024x64, m ((c : Thread nD τ).loc main_arg4)⟩, ⟨S1024x64, m ((c : Thread nD τ).loc main_arg6)⟩] concatenates_S1024x64_S1024x64_S1024x128_d1 := by
  dsimp only [V, hostOps0]; after_results

theorem V_v1 (c : Dev nD) : (V m c main_v1 : S128.Idx → Elt F .f32)
    = concatenate S128 0 [⟨S64, m ((c : Thread nD τ).loc main_arg5)⟩, ⟨S64, m ((c : Thread nD τ).loc main_arg7)⟩] concatenates_S64_S64_S128_d0 := by
  dsimp only [V, hostOps0]; after_results

theorem iblk0_apply (c : Dev nD) (t : Fin cfg0.N) (k : Fin 2048) (e : Fin 1024) (n : Fin 8) (hn : n.val = t.val / 8) :
    (iblk m c 0 t : Vec F S1x2048x1024 .f32) (ix3 (0 : Fin 1) k e) = V m c main_arg0 (ix3 n k e) := by
  unfold iblk
  rw [View.read_apply]
  show V m c main_arg0 _ = V m c main_arg0 _
  congr 1
  obtain ⟨e0, e1, e2, -⟩ := idx_facts t
  funext a; apply Fin.ext
  match a with
  | ⟨0, _⟩ => show win0_0.index t (0 : Fin 3) * 1 + 1 * 0 = n.val; omega
  | ⟨1, _⟩ => show win0_0.index t (1 : Fin 3) * 2048 + 1 * k.val = k.val; omega
  | ⟨2, _⟩ => show win0_0.index t (2 : Fin 3) * 1024 + 1 * e.val = e.val; omega

theorem iblk2_apply (c : Dev nD) (t : Fin cfg0.N) (e : Fin 1024) (h : Fin 64) :
    (iblk m c 2 t : Vec F S1024x64 .f32) (ix2 e h) = V m c main_arg2 (ix2 e h) := by
  unfold iblk
  rw [View.read_apply]
  show V m c main_arg2 _ = V m c main_arg2 _
  congr 1
  obtain ⟨-, -, -, -, -, -, e0, e1, -⟩ := idx_facts t
  funext a; apply Fin.ext
  match a with
  | ⟨0, _⟩ => show win0_2.index t (0 : Fin 2) * 1024 + 1 * e.val = e.val; omega
  | ⟨1, _⟩ => show win0_2.index t (1 : Fin 2) * 64 + 1 * h.val = h.val; omega

theorem iblk3_apply (c : Dev nD) (t : Fin cfg0.N) (h : Fin 64) :
    (iblk m c 3 t : Vec F S64 .f32) (ix1 h) = V m c main_arg3 (ix1 h) := by
  unfold iblk
  rw [View.read_apply]
  show V m c main_arg3 _ = V m c main_arg3 _
  congr 1
  obtain ⟨-, -, -, -, -, -, -, -, e0, -⟩ := idx_facts t
  funext a; apply Fin.ext
  match a with
  | ⟨0, _⟩ => show win0_3.index t (0 : Fin 1) * 64 + 1 * h.val = h.val; omega

theorem iblk4_apply (c : Dev nD) (t : Fin cfg0.N) (e : Fin 1024) (col : Fin 128) :
    (iblk m c 4 t : Vec F S1024x128 .f32) (ix2 e col) = V m c main_v0 (ix2 e col) := by
  unfold iblk
  rw [View.read_apply]
  show V m c main_v0 _ = V m c main_v0 _
  congr 1
  obtain ⟨-, -, -, -, -, -, -, -, -, e0, e1, -⟩ := idx_facts t
  funext a; apply Fin.ext
  match a with
  | ⟨0, _⟩ => show win0_4.index t (0 : Fin 2) * 1024 + 1 * e.val = e.val; omega
  | ⟨1, _⟩ => show win0_4.index t (1 : Fin 2) * 128 + 1 * col.val = col.val; omega

theorem iblk5_apply (c : Dev nD) (t : Fin cfg0.N) (col : Fin 128) :
    (iblk m c 5 t : Vec F S128 .f32) (ix1 col) = V m c main_v1 (ix1 col) := by
  unfold iblk
  rw [View.read_apply]
  show V m c main_v1 _ = V m c main_v1 _
  congr 1
  obtain ⟨-, -, -, -, -, -, -, -, -, -, -, e0, -⟩ := idx_facts t
  funext a; apply Fin.ext
  match a with
  | ⟨0, _⟩ => show win0_5.index t (0 : Fin 1) * 128 + 1 * col.val = col.val; omega

theorem emb6 (t : Fin cfg0.N) (u : Fin 1) (r : Fin 256) (h : Fin 64) (n : Fin 8) (R : Fin 2048)
    (hn : n.val = t.val / 8) (hR : R.val = (t.val % 8) * 256 + r.val) :
    ((cfg0.win 6).blk t).view.emb (ix3 u r h) = (ix3 n R h : S8x2048x64.Idx) := by
  obtain ⟨-, -, -, -, -, -, -, -, -, -, -, -, e0, e1, e2, -⟩ := idx_facts t
  have hu : u.val = 0 := by omega
  funext a; apply Fin.ext
  match a with
  | ⟨0, _⟩ => show win0_6.index t (0 : Fin 3) * 1 + 1 * u.val = n.val; omega
  | ⟨1, _⟩ => show win0_6.index t (1 : Fin 3) * 256 + 1 * r.val = R.val; omega
  | ⟨2, _⟩ => show win0_6.index t (2 : Fin 3) * 64 + 1 * h.val = h.val; omega

theorem V_v0_keys (c : Dev nD) (e : Fin 1024) (h : Fin 64) :
    V m c main_v0 (ix2 e (⟨h.val, by omega⟩ : Fin 128)) = m ((c : Thread nD τ).loc main_arg4) (ix2 e h) :=
  (congrFun (V_v0 m c) _).trans (concatenate_pair_apply_left (t := S1024x128) (s₁ := S1024x64) (s₂ := S1024x64) (1 : Fin 2)
    (m ((c : Thread nD τ).loc main_arg4)) (m ((c : Thread nD τ).loc main_arg6)) concatenates_S1024x64_S1024x64_S1024x128_d1
    (ix2 e (⟨h.val, by omega⟩ : Fin 128)) rfl (ix2 e h)
    (fun b => match b with | ⟨0, _⟩ => rfl | ⟨1, _⟩ => rfl))

theorem V_v0_vals (c : Dev nD) (e : Fin 1024) (h : Fin 64) :
    V m c main_v0 (ix2 e (⟨64 + h.val, by omega⟩ : Fin 128)) = m ((c : Thread nD τ).loc main_arg6) (ix2 e h) :=
  (congrFun (V_v0 m c) _).trans (concatenate_pair_apply_right (t := S1024x128) (s₁ := S1024x64) (s₂ := S1024x64) (1 : Fin 2)
    (m ((c : Thread nD τ).loc main_arg4)) (m ((c : Thread nD τ).loc main_arg6)) concatenates_S1024x64_S1024x64_S1024x128_d1
    (ix2 e (⟨64 + h.val, by omega⟩ : Fin 128)) rfl rfl (ix2 e h)
    (fun b hb => match b with | ⟨0, _⟩ => rfl | ⟨1, _⟩ => absurd rfl hb)
    (by show h.val + 64 = 64 + h.val; omega))

theorem V_v1_keys (c : Dev nD) (h : Fin 64) :
    V m c main_v1 (ix1 (⟨h.val, by omega⟩ : Fin 128)) = m ((c : Thread nD τ).loc main_arg5) (ix1 h) :=
  (congrFun (V_v1 m c) _).trans (concatenate_pair_apply_left (t := S128) (s₁ := S64) (s₂ := S64) (0 : Fin 1)
    (m ((c : Thread nD τ).loc main_arg5)) (m ((c : Thread nD τ).loc main_arg7)) concatenates_S64_S64_S128_d0
    (ix1 (⟨h.val, by omega⟩ : Fin 128)) rfl (ix1 h)
    (fun b => match b with | ⟨0, _⟩ => rfl))

theorem V_v1_vals (c : Dev nD) (h : Fin 64) :
    V m c main_v1 (ix1 (⟨64 + h.val, by omega⟩ : Fin 128)) = m ((c : Thread nD τ).loc main_arg7) (ix1 h) :=
  (congrFun (V_v1 m c) _).trans (concatenate_pair_apply_right (t := S128) (s₁ := S64) (s₂ := S64) (0 : Fin 1)
    (m ((c : Thread nD τ).loc main_arg5)) (m ((c : Thread nD τ).loc main_arg7)) concatenates_S64_S64_S128_d0
    (ix1 (⟨64 + h.val, by omega⟩ : Fin 128)) rfl rfl (ix1 h)
    (fun b hb => match b with | ⟨0, _⟩ => absurd rfl hb)
    (by show h.val + 64 = 64 + h.val; omega))

end Cert.KernelIdeal.Blocks

end
-- ==== Proof.AttentionSpec.lean ====
/-
  Single-head attention whose lower-triangular mask is applied by ZEROING the scores above the diagonal (not by
  sending them to -∞), as functions of the argument arrays over the extended reals.

  For a batch `n`, a query row `r`, a key row `j` and a head column `h`:
    q = y·Wq + bq,  k = x·Wk + bk,  v = x·Wv + bv                        (three linear projections),
    s r j = (Σ_h q r h · k j h) · c   if j ≤ r,   0 otherwise           (the masked, scaled scores),
    m r   = max_j s r j,   w r j = exp (s r j - m r),   l r = Σ_j w r j  (the softmax's pieces),
  and the result is read in two arrangements: the quotient of the weighted sum, (Σ_j w r j · v j h) / l r,
  and the sum weighted by the quotients, Σ_j (w r j / l r) · v j h. They agree when every entry is a real
  (the law is in AttentionLaw.lean).
-/
import Idealize.ShloMosaic.PureOps.Ideal
import Idealize.ShloMosaic.Lib.ValueIdx

noncomputable section

open scoped BigOperators

namespace Attention

open Idealize.ShloMosaic Idealize.ShloMosaic.ValueIdx

/-- The shapes of the arguments and of the result. -/
abbrev SX : Shape := ⟨3, ![8, 2048, 1024]⟩
abbrev SW : Shape := ⟨2, ![1024, 64]⟩
abbrev SB : Shape := ⟨1, ![64]⟩
abbrev SO : Shape := ⟨3, ![8, 2048, 64]⟩

/-- A linear projection of batch `n`: row `r` of `x` against column `h` of `W`, plus the bias. -/
def proj (x : SX.Idx → EReal) (W : SW.Idx → EReal) (b : SB.Idx → EReal) (n : Fin 8) (r : Fin 2048) (h : Fin 64) : EReal :=
  (∑ e : Fin 1024, x (ix3 n r e) * W (ix2 e h)) + b (ix1 h)

/-- The scaled score of query row `r` against key row `j`, kept on and below the diagonal and zero above it. -/
def score (c : EReal) (q k : Fin 2048 → Fin 64 → EReal) (r j : Fin 2048) : EReal :=
  if j.val ≤ r.val then (∑ h : Fin 64, q r h * k j h) * c else 0

/-- The largest entry of a row, from -∞. -/
def rowMax (s : Fin 2048 → EReal) : EReal := (Finset.univ : Finset (Fin 2048)).fold max ⊥ s

/-- The unnormalised softmax weight of entry `j`. -/
def weight (s : Fin 2048 → EReal) (j : Fin 2048) : EReal := Ideal.exp (s j - rowMax s)

/-- The softmax's denominator. -/
def denom (s : Fin 2048 → EReal) : EReal := ∑ j : Fin 2048, weight s j

/-- The weighted sum of a column, divided once by the denominator. -/
def quotOfSum (s v : Fin 2048 → EReal) : EReal := Ideal.div (∑ j : Fin 2048, weight s j * v j) (denom s)

/-- The column weighted by the normalised weights. -/
def sumOfQuot (s v : Fin 2048 → EReal) : EReal := ∑ j : Fin 2048, Ideal.div (weight s j) (denom s) * v j

/-- The scores of batch `n`, query row `r`. -/
def scores (c : EReal) (x y : SX.Idx → EReal) (Wq : SW.Idx → EReal) (bq : SB.Idx → EReal) (Wk : SW.Idx → EReal)
    (bk : SB.Idx → EReal) (n : Fin 8) (r : Fin 2048) : Fin 2048 → EReal :=
  score c (proj y Wq bq n) (proj x Wk bk n) r

/-- The result with the division done once per entry, after the weighted sum. -/
def attnQuotOfSum (c : EReal) (x y : SX.Idx → EReal) (Wq : SW.Idx → EReal) (bq : SB.Idx → EReal) (Wk : SW.Idx → EReal)
    (bk : SB.Idx → EReal) (Wv : SW.Idx → EReal) (bv : SB.Idx → EReal) : SO.Idx → EReal := fun i =>
  quotOfSum (scores c x y Wq bq Wk bk (i 0) (i 1)) (fun j => proj x Wv bv (i 0) j (i 2))

/-- The result with the weights normalised first. -/
def attnSumOfQuot (c : EReal) (x y : SX.Idx → EReal) (Wq : SW.Idx → EReal) (bq : SB.Idx → EReal) (Wk : SW.Idx → EReal)
    (bk : SB.Idx → EReal) (Wv : SW.Idx → EReal) (bv : SB.Idx → EReal) : SO.Idx → EReal := fun i =>
  sumOfQuot (scores c x y Wq bq Wk bk (i 0) (i 1)) (fun j => proj x Wv bv (i 0) j (i 2))

/-- The scale as the kernel writes it: the word of 1/8. -/
def scaleWord : EReal := Ideal.ofBits .f32 0x3E000000#32

/-- The scale as the reference computes it: 1 / √64. -/
def scaleQuot : EReal := Ideal.div (Ideal.ofBits .f32 0x3F800000#32) (Ideal.sqrt (Ideal.ofBits .f32 0x42800000#32))

end Attention

end
-- ==== Proof.LibFiniteEntries.lean ====
/-
  Finite entries, on the extended reals — general facts for a claim whose precondition says "every float input is finite":

  * the coercion of a finite sum of reals is the sum of the coercions (so an identity between finite sums of products
    of real entries can be proved in `ℝ` and carried back);
  * an extended real whose absolute value `max x (-x)` compares below the float `+∞` is a real;
  * `jnp.all(|a| < +∞)` — a reduction by `and`, over all axes, of that comparison against the broadcast float `+∞` —
    being true makes every entry of `a` a real, for an array `a` of any shape.
-/
import Idealize.ShloMosaic.PureOps.Ideal
import Idealize.ShloMosaic.PureOps.Ideal.Laws
import Idealize.ShloMosaic.Lib.ValueIdx
import Idealize.ShloMosaic.Lib.ReduceAll
import Idealize.ShloMosaic.Lib.Pipeline.Value

noncomputable section

open scoped BigOperators

namespace Idealize.ShloMosaic.FiniteEntries

open Idealize.ShloMosaic Idealize.ShloMosaic.ValueIdx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The rank-0 shape has one index. -/
instance : Subsingleton (⟨0, ![]⟩ : Shape).Idx := ⟨fun _ _ => funext fun d => d.elim0⟩

/-- An extended real whose absolute value compares below the float `+∞` is a real: `max x (-x)` is `+∞` at both
    infinities. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- `jnp.all(|a| < +∞)` being true makes every entry of `a` a real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : (⟨0, ![]⟩ : Shape).Idx → BitVec 1)
    (e : Host.reduce IntOp.andi
          (cmpf .olt (Host.absf a) (broadcastInDim s ![] hb (constant (F := Ideal) ⟨0, ![]⟩ .f32 0x7F800000#32)))
          init hr hu ix0 = 1#1)
    (i : s.Idx) : ∃ r : ℝ, a i = r := by
  have hi := Host.reduce_andi_all _ init hr hu ix0 e i
  refine real_of_abs_lt (a i) ?_
  rw [cmpf_apply, broadcastInDim_apply ![] hb _ i ix0 fun d => d.elim0] at hi
  exact hi

end Idealize.ShloMosaic.FiniteEntries

end
-- ==== Proof.AttentionLaw.lean ====
/-
  The law of the two arrangements of attention, on the extended reals, and the constants the two programs spell.

  When every argument entry is a real and the scale is a real, every projection, score, row maximum, weight and
  denominator is a real; each weight exp (s j - m) is positive, so the denominator l is a positive real and division
  by it is multiplication by the real 1/l. The identity (Σ_j w j · v j) · (1/l) = Σ_j (w j · (1/l)) · v j is then an
  identity between finite sums of real products: it is proved in ℝ (distribute the factor over the sum, commute each
  term) and carried back through the coercion, which commutes with finite sums and with products of reals.

  The constants: the word 0x3E000000 denotes 1/8, which is also 1 / √64; the word 0xFF800000 denotes -∞.
-/
import proofs.«108188_j14173392077129_2_alg».proof.Proof.AttentionSpec
import proofs.«108188_j14173392077129_2_alg».proof.Proof.LibFiniteEntries

noncomputable section

open scoped BigOperators

namespace Attention

open Idealize.ShloMosaic Idealize.ShloMosaic.ValueIdx

/-! ### The three constants -/

/-- The word 0x3E000000 has exponent field 124 and an empty fraction: it denotes 2^(124-127) = 1/8. -/
theorem scaleWord_eq : scaleWord = ((1 / 8 : ℝ) : EReal) := by
  unfold scaleWord
  simp [Ideal.ofBits, Ideal.ieee, -EReal.coe_mul]; norm_num

/-- The word 0x3F800000 denotes 1. -/
theorem ofBits_one : Ideal.ofBits .f32 0x3F800000#32 = ((1 : ℝ) : EReal) := by
  simp [Ideal.ofBits, Ideal.ieee, -EReal.coe_mul]; norm_num

/-- The word 0x42800000 denotes 64. -/
theorem ofBits_sixtyFour : Ideal.ofBits .f32 0x42800000#32 = ((64 : ℝ) : EReal) := by
  simp [Ideal.ofBits, Ideal.ieee, -EReal.coe_mul]; norm_num

/-- The word 0xFF800000 denotes -∞. -/
theorem negInf_eq : Ideal.ofBits .f32 0xFF800000#32 = (⊥ : EReal) := by
  simp [Ideal.ofBits, Ideal.ieee]

/-- The two spellings of the scale agree: 1 / √64 = 1 / 8. -/
theorem scale_eq : scaleWord = scaleQuot := by
  have h8 : Real.sqrt 64 = 8 := by
    rw [show (64 : ℝ) = 8 ^ 2 by norm_num, Real.sqrt_sq (by norm_num)]
  rw [scaleWord_eq]
  unfold scaleQuot
  rw [ofBits_one, ofBits_sixtyFour, Ideal.sqrt_coe, if_neg (by norm_num), h8,
    Ideal.div_coe (by norm_num : (8 : ℝ) ≠ 0), ← EReal.coe_mul, one_mul]

/-! ### Real-valued in, real-valued out -/

theorem real_mul {a b : EReal} (ha : ∃ r : ℝ, a = r) (hb : ∃ r : ℝ, b = r) : ∃ r : ℝ, a * b = r := by
  obtain ⟨r, rfl⟩ := ha
  obtain ⟨t, rfl⟩ := hb
  exact ⟨r * t, (EReal.coe_mul r t).symm⟩

theorem real_add {a b : EReal} (ha : ∃ r : ℝ, a = r) (hb : ∃ r : ℝ, b = r) : ∃ r : ℝ, a + b = r := by
  obtain ⟨r, rfl⟩ := ha
  obtain ⟨t, rfl⟩ := hb
  exact ⟨r + t, (EReal.coe_add r t).symm⟩

theorem real_sum {ι : Type*} (t : Finset ι) (f : ι → EReal) (hf : ∀ i, ∃ r : ℝ, f i = r) :
    ∃ r : ℝ, ∑ i ∈ t, f i = r := by
  choose g hg using hf
  exact ⟨∑ i ∈ t, g i, by rw [FiniteEntries.coe_sum]; exact Finset.sum_congr rfl fun i _ => hg i⟩

/-- A projection of real entries is real. -/
theorem proj_real (x : SX.Idx → EReal) (W : SW.Idx → EReal) (b : SB.Idx → EReal)
    (hx : ∀ i, ∃ r : ℝ, x i = r) (hW : ∀ i, ∃ r : ℝ, W i = r) (hb : ∀ i, ∃ r : ℝ, b i = r)
    (n : Fin 8) (r : Fin 2048) (h : Fin 64) : ∃ t : ℝ, proj x W b n r h = t := by
  unfold proj
  exact real_add (real_sum _ _ fun e => real_mul (hx _) (hW _)) (hb _)

/-- A score of real rows with a real scale is real (above the diagonal it is 0). -/
theorem score_real (c : EReal) (hc : ∃ r : ℝ, c = r) (q k : Fin 2048 → Fin 64 → EReal)
    (hq : ∀ r h, ∃ t : ℝ, q r h = t) (hk : ∀ r h, ∃ t : ℝ, k r h = t) (r j : Fin 2048) :
    ∃ t : ℝ, score c q k r j = t := by
  unfold score
  split_ifs
  · exact real_mul (real_sum _ _ fun h => real_mul (hq _ _) (hk _ _)) hc
  · exact ⟨0, EReal.coe_zero.symm⟩

/-- The running maximum from -∞ over a nonempty finite set of reals is a real. -/
theorem fold_max_real {ι : Type*} (s : ι → EReal) (hs : ∀ i, ∃ r : ℝ, s i = r) (t : Finset ι) (ht : t.Nonempty) :
    ∃ m : ℝ, t.fold max ⊥ s = m := by
  induction ht using Finset.Nonempty.cons_induction with
  | singleton a =>
    obtain ⟨r, hr⟩ := hs a
    exact ⟨r, by rw [Finset.fold_singleton, hr, max_bot_right]⟩
  | cons a t h ht ih =>
    obtain ⟨r, hr⟩ := hs a
    obtain ⟨m, hm⟩ := ih
    exact ⟨max r m, by rw [Finset.fold_cons, hr, hm]; exact (EReal.coe_strictMono.monotone.map_max).symm⟩

theorem rowMax_real (s : Fin 2048 → EReal) (hs : ∀ j, ∃ r : ℝ, s j = r) : ∃ m : ℝ, rowMax s = m :=
  fold_max_real s hs Finset.univ ⟨0, Finset.mem_univ _⟩

/-- Each weight of a real row is a positive real. -/
theorem weight_real (s : Fin 2048 → EReal) (hs : ∀ j, ∃ r : ℝ, s j = r) (j : Fin 2048) :
    ∃ w : ℝ, 0 < w ∧ weight s j = w := by
  obtain ⟨m, hm⟩ := rowMax_real s hs
  obtain ⟨r, hr⟩ := hs j
  refine ⟨Real.exp (r - m), Real.exp_pos _, ?_⟩
  unfold weight
  rw [hm, hr, ← EReal.coe_sub, Ideal.exp_coe]

/-- The denominator of a real row is a positive real. -/
theorem denom_real (s : Fin 2048 → EReal) (hs : ∀ j, ∃ r : ℝ, s j = r) : ∃ l : ℝ, 0 < l ∧ denom s = l := by
  choose w hpos hw using weight_real s hs
  refine ⟨∑ j, w j, Finset.sum_pos (fun j _ => hpos j) ⟨0, Finset.mem_univ _⟩, ?_⟩
  unfold denom
  rw [FiniteEntries.coe_sum]
  exact Finset.sum_congr rfl fun j _ => hw j

/-! ### The law -/

/-- Over the reals, dividing the weighted sum once is the sum weighted by the divided weights. -/
theorem law_coe (w u : Fin 2048 → ℝ) (l : ℝ) (hl : l ≠ 0) :
    Ideal.div (∑ j, (w j : EReal) * (u j : EReal)) (l : EReal)
      = ∑ j, Ideal.div (w j : EReal) (l : EReal) * (u j : EReal) := by
  rw [Ideal.div_coe hl]
  simp only [Ideal.div_coe hl, ← EReal.coe_mul]
  rw [← FiniteEntries.coe_sum, ← FiniteEntries.coe_sum, ← EReal.coe_mul, Finset.sum_mul]
  congr 1
  exact Finset.sum_congr rfl fun j _ => by ring

/-- The two arrangements agree on a real row of scores and a real column. -/
theorem quotOfSum_eq_sumOfQuot (s v : Fin 2048 → EReal) (hs : ∀ j, ∃ r : ℝ, s j = r) (hv : ∀ j, ∃ r : ℝ, v j = r) :
    quotOfSum s v = sumOfQuot s v := by
  obtain ⟨l, hl, hd⟩ := denom_real s hs
  choose w _ hw using weight_real s hs
  choose u hu using hv
  unfold quotOfSum sumOfQuot
  simp only [hd, hw, hu]
  exact law_coe w u l hl.ne'

theorem attn_eq (c : EReal) (hc : ∃ r : ℝ, c = r) (x y : SX.Idx → EReal) (Wq : SW.Idx → EReal) (bq : SB.Idx → EReal)
    (Wk : SW.Idx → EReal) (bk : SB.Idx → EReal) (Wv : SW.Idx → EReal) (bv : SB.Idx → EReal)
    (hx : ∀ i, ∃ r : ℝ, x i = r) (hy : ∀ i, ∃ r : ℝ, y i = r) (hWq : ∀ i, ∃ r : ℝ, Wq i = r)
    (hbq : ∀ i, ∃ r : ℝ, bq i = r) (hWk : ∀ i, ∃ r : ℝ, Wk i = r) (hbk : ∀ i, ∃ r : ℝ, bk i = r)
    (hWv : ∀ i, ∃ r : ℝ, Wv i = r) (hbv : ∀ i, ∃ r : ℝ, bv i = r) :
    attnQuotOfSum c x y Wq bq Wk bk Wv bv = attnSumOfQuot c x y Wq bq Wk bk Wv bv := by
  funext i
  unfold attnQuotOfSum attnSumOfQuot
  refine quotOfSum_eq_sumOfQuot _ _ (fun j => ?_) (fun j => proj_real x Wv bv hx hWv hbv _ _ _)
  unfold scores
  exact score_real c hc _ _ (proj_real y Wq bq hy hWq hbq _) (proj_real x Wk bk hx hWk hbk _) _ _

end Attention

end
-- ==== Proof.MaskWords.lean ====
/-
  The lower-triangular mask as the kernel spells it: at query tile `b`, local row `c` and key column `a`, the
  comparison "column ≤ row" is made on signed 32-bit words, the row being `b · 256 + c`. All three numbers are far below
  2³¹, so the signed comparison of the words is the comparison of the numbers.
-/
import Idealize.ShloMosaic.Lib.Affine
import Idealize.ShloMosaic.Lib.WordArith
import Idealize.ShloMosaic.Lib.ValueIdx

namespace Attention.MaskWords

open Idealize.ShloMosaic

/-- The row's word: tile number times 256 plus the local row, with no wrap-around. -/
theorem row_word (b c : Nat) :
    IntOp.addi (Scalar.muli (BitVec.ofNat 32 b) 256#32) (BitVec.ofNat 32 c) = BitVec.ofNat 32 (b * 256 + c) := by
  unfold IntOp.addi Scalar.muli IntOp.muli
  rw [BitVec.ofNat_add, BitVec.ofNat_mul]

/-- A select on "column word ≤ row word" (signed) is the choice on "column ≤ row". -/
theorem select_sle {α : Type} (a b c : Nat) (ha : a < 2048) (hb : b < 8) (hc : c < 256) (A B : α) :
    Scalar.select (IntOp.cmpi .sle (BitVec.ofNat 32 a)
        (IntOp.addi (Scalar.muli (BitVec.ofNat 32 b) 256#32) (BitVec.ofNat 32 c))) A B
      = if a ≤ b * 256 + c then A else B := by
  rw [row_word]
  unfold Scalar.select
  have h1 : (BitVec.ofNat 32 a).toInt = a := WordArith.toInt_ofNat_small a (by omega)
  have h2 : (BitVec.ofNat 32 (b * 256 + c)).toInt = (b * 256 + c : Nat) := WordArith.toInt_ofNat_small _ (by omega)
  refine if_congr ?_ rfl rfl
  exact (IntOp.cmpi_sle (x := BitVec.ofNat 32 a) (y := BitVec.ofNat 32 (b * 256 + c))).trans
    (by rw [h1, h2]; exact Int.ofNat_le)

end Attention.MaskWords
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.LibRowDots.lean ====
/-
  Reads at an index, at the ideal values (floats are extended reals), of what an attention block adds to the plain
  row-wise operations, stated for any extents with every index written by coordinates:

  * a product of two rank-2 arrays along their SECOND axes, `[A, K] × [B, K] → [A, B]` — every row of the left operand
    against every row of the right one, as a `tpu.matmul` into the zero accumulator computes it —, read at `(i, c)`, is
    the sum over `k` of `l (i, k) * r (c, k)`;
  * a reduction of a rank-2 array along its rows, `[A, B] → [A]`, read at `p`: by sum, the sum over `k` of the entry
    at `(p, k)`; by maximum, the fold of `max` over them from the accumulator's value;
  * the host's reduction of a rank-3 array along its last axis with a maximum body, `[N, A, B] → [N, A]`, read at
    `(n, p)`: the fold of `max` over `k` of the entry at `(n, p, k)`, from the initial value;
  * an index of rank one, two or three is determined by the values of its coordinates.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Idealize.ShloMosaic.RowDots

open Idealize.ShloMosaic Idealize.ShloMosaic.ValueIdx

/-! ## An index from the values of its coordinates -/

/-- A rank-1 index whose coordinate has the value of `a` is `ix1 a`. -/
theorem idx1_ext {n0 : Nat} (j : (⟨1, ![n0]⟩ : Shape).Idx) (a : Fin n0) (h0 : (j 0).val = a.val) : j = ix1 a :=
  funext fun c => Fin.ext (by match c with | ⟨0, _⟩ => exact h0)

/-- A rank-2 index whose coordinates have the values of `a` and `b` is `ix2 a b`. -/
theorem idx2_ext {n0 n1 : Nat} (j : (⟨2, ![n0, n1]⟩ : Shape).Idx) (a : Fin n0) (b : Fin n1)
    (h0 : (j 0).val = a.val) (h1 : (j 1).val = b.val) : j = ix2 a b :=
  funext fun c => Fin.ext (by match c with | ⟨0, _⟩ => exact h0 | ⟨1, _⟩ => exact h1)

/-- A rank-3 index whose coordinates have the values of `a`, `b` and `c` is `ix3 a b c`. -/
theorem idx3_ext {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun e => Fin.ext (by match e with | ⟨0, _⟩ => exact h0 | ⟨1, _⟩ => exact h1 | ⟨2, _⟩ => exact h2)

/-! ## Rows against rows -/

/-- The dimension numbers of `[A, K] × [B, K] → [A, B]`: both operands' axis 1 contracted, no batch axis. -/
abbrev rowsDims {A K B : Nat}
    (wf : DotDims.WF (⟨2, ![A, K]⟩ : Shape) ⟨2, ![B, K]⟩ ⟨2, ![A, B]⟩ [1] [1] [0] [0] [] []) :
    DotDims (⟨2, ![A, K]⟩ : Shape) ⟨2, ![B, K]⟩ ⟨2, ![A, B]⟩ :=
  ⟨[1], [1], [0], [0], [], [], wf⟩

/-- Off the contracted axis the left operand's index is the result's row. -/
theorem rows_lhs0 {A K B : Nat} (wf : DotDims.WF (⟨2, ![A, K]⟩ : Shape) ⟨2, ![B, K]⟩ ⟨2, ![A, B]⟩ [1] [1] [0] [0] [] [])
    (j : (⟨2, ![A, B]⟩ : Shape).Idx) (q : (rowsDims wf).contr.Idx) :
    ((rowsDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column. -/
theorem rows_rhs0 {A K B : Nat} (wf : DotDims.WF (⟨2, ![A, K]⟩ : Shape) ⟨2, ![B, K]⟩ ⟨2, ![A, B]⟩ [1] [1] [0] [0] [] [])
    (j : (⟨2, ![A, B]⟩ : Shape).Idx) (q : (rowsDims wf).contr.Idx) :
    ((rowsDims wf).rhsIdx j q 0).val = (j 1).val := by
  unfold DotDims.rhsIdx
  rw [dif_neg (show ¬(0 : Fin 2) ∈ ([] : List (Fin 2)) from List.not_mem_nil),
    dif_pos (show (0 : Fin 2) ∈ ([0] : List (Fin 2)) from List.mem_singleton.mpr rfl)]
  rfl

/-- The contraction sum of a rows-against-rows product, re-indexed by the contracted coordinate: at `j = (i, c)` the
    left operand is read along its row `i`, the right one along its row `c`. -/
theorem rowsDot_sum {A K B : Nat} (d : DotDims (⟨2, ![A, K]⟩ : Shape) ⟨2, ![B, K]⟩ ⟨2, ![A, B]⟩)
    (hd : ∃ wf, d = rowsDims wf)
    (l : (⟨2, ![A, K]⟩ : Shape).Idx → EReal) (r : (⟨2, ![B, K]⟩ : Shape).Idx → EReal) (j : (⟨2, ![A, B]⟩ : Shape).Idx) :
    ∑ k : d.contr.Idx, l (d.lhsIdx j k) * r (d.rhsIdx j k) = ∑ k : Fin K, l (ix2 (j 0) k) * r (ix2 (j 1) k) := by
  obtain ⟨wf, rfl⟩ := hd
  rw [← Equiv.sum_comp (contrEquiv1 (rowsDims wf) K rfl rfl).symm]
  refine Finset.sum_congr rfl fun k _ => ?_
  have hk := contrEquiv1_symm_val (rowsDims wf) K rfl rfl k
  have el : (rowsDims wf).lhsIdx j ((contrEquiv1 (rowsDims wf) K rfl rfl).symm k) = ix2 (j 0) k :=
    idx2_ext _ _ _ (rows_lhs0 wf j _) (((rowsDims wf).lhsIdx_val_of_single (cl := 1) rfl j _).trans hk)
  have er : (rowsDims wf).rhsIdx j ((contrEquiv1 (rowsDims wf) K rfl rfl).symm k) = ix2 (j 1) k :=
    idx2_ext _ _ _ (rows_rhs0 wf j _) (((rowsDims wf).rhsIdx_val_of_single (cr := 1) rfl j _).trans hk)
  rw [el, er]
  rfl

/-- A `tpu.matmul` of rows against rows into the zero accumulator, read at `(i, c)`: the sum over `k` of
    `l (i, k) * r (c, k)`. -/
theorem matmul_zero_rows_apply {A K B : Nat} {φ₁ φ₂ : FTy} (d : DotDims (⟨2, ![A, K]⟩ : Shape) ⟨2, ![B, K]⟩ ⟨2, ![A, B]⟩)
    (hd : ∃ wf, d = rowsDims wf) (prec : Option ContractPrecision)
    (l : FVec Ideal (⟨2, ![A, K]⟩ : Shape) φ₁) (r : FVec Ideal (⟨2, ![B, K]⟩ : Shape) φ₂) (i : Fin A) (c : Fin B) :
    FloatOps.matmul d prec l r (constant (⟨2, ![A, B]⟩ : Shape) .f32 0x00000000#32) (ix2 i c)
      = ∑ k : Fin K, l (ix2 i k) * r (ix2 c k) := by
  rw [Ideal.matmul_constant_zero_apply]
  exact rowsDot_sum d hd l r (ix2 i c)

/-! ## Reductions along the rows -/

/-- The reduced index `p` of `[A, B] → [A]` with the column `k` put back is `(p, k)`. -/
theorem lift_row {A B : Nat} (h : (⟨2, ![A, B]⟩ : Shape).Reduces [1] (⟨1, ![A]⟩ : Shape)) (p : Fin A)
    (k : Fin ((⟨2, ![A, B]⟩ : Shape).size 1)) : h.lift (ix1 p) k = ix2 p (⟨k.val, k.isLt⟩ : Fin B) :=
  idx2_ext _ _ _ rfl rfl

/-- A float `vector.multi_reduction <add>` along the rows, read at `p`: the sum of row `p`. -/
theorem rowSum_apply {A B : Nat} {φ : FTy} (src : FVec Ideal (⟨2, ![A, B]⟩ : Shape) φ) (acc : BitVec φ.bits)
    (h : (⟨2, ![A, B]⟩ : Shape).Reduces [1] (⟨1, ![A]⟩ : Shape)) (hφ : FKind.Formats φ) (hacc : acc = FKind.add.neutral φ hφ)
    (p : Fin A) :
    multiReduction .add [1] (⟨1, ![A]⟩ : Shape) src acc h hφ hacc (ix1 p) = ∑ k : Fin B, src (ix2 p k) := by
  rw [Ideal.multiReduction_add_single]
  exact Finset.sum_congr rfl fun k _ => congrArg src (lift_row h p k)

/-- A float `vector.multi_reduction <maximumf>` along the rows, read at `p`: the fold of `max` over row `p`, from the
    accumulator's value. -/
theorem rowMax_apply {A B : Nat} {φ : FTy} (src : FVec Ideal (⟨2, ![A, B]⟩ : Shape) φ) (acc : BitVec φ.bits)
    (h : (⟨2, ![A, B]⟩ : Shape).Reduces [1] (⟨1, ![A]⟩ : Shape)) (hφ : FKind.Formats φ)
    (hacc : acc = FKind.maximumf.neutral φ hφ) (p : Fin A) :
    multiReduction .maximumf [1] (⟨1, ![A]⟩ : Shape) src acc h hφ hacc (ix1 p)
      = (Finset.univ : Finset (Fin B)).fold max (Ideal.ofBits φ acc) (fun k => src (ix2 p k)) := by
  rw [Ideal.multiReduction_maximumf_single]
  exact congrArg (fun f => Finset.fold max (Ideal.ofBits φ acc) f (Finset.univ : Finset (Fin B)))
    (funext fun k => congrArg src (lift_row h p k))

/-- The reduced index `(n, p)` of `[N, A, B] → [N, A]` with the last coordinate `k` put back is `(n, p, k)`. -/
theorem lift_last3 {N A B : Nat} (h : (⟨3, ![N, A, B]⟩ : Shape).Reduces [2] (⟨2, ![N, A]⟩ : Shape)) (n : Fin N) (p : Fin A)
    (k : Fin ((⟨3, ![N, A, B]⟩ : Shape).size 2)) : h.lift (ix2 n p) k = ix3 n p (⟨k.val, k.isLt⟩ : Fin B) :=
  idx3_ext _ _ _ _ rfl rfl rfl

/-- The host's one-operand `stablehlo.reduce` with a maximum body along the last axis of a rank-3 array, read at
    `(n, p)`: the fold of `max` over `k` of the entry at `(n, p, k)`, from the initial value. -/
theorem hostReduceMax_last3_apply {N A B : Nat} {φ : FTy} {u : Shape} (x : FVec Ideal (⟨3, ![N, A, B]⟩ : Shape) φ)
    (init : u.Idx → Ideal φ) (h' : (⟨3, ![N, A, B]⟩ : Shape).ReducesTo [2] (⟨2, ![N, A]⟩ : Shape))
    (h : (⟨3, ![N, A, B]⟩ : Shape).Reduces [2] (⟨2, ![N, A]⟩ : Shape)) (hu : 0 < u.numel) (n : Fin N) (p : Fin A) :
    Host.reduce FloatOps.maximumf x init h' hu (ix2 n p)
      = (Finset.univ : Finset (Fin B)).fold max (init (Shape.Idx.first hu)) (fun k => x (ix3 n p k)) := by
  rw [Host.reduce_eq_fold_single FloatOps.maximumf x init h' h hu]
  exact congrArg (fun f => Finset.fold max (init (Shape.Idx.first hu)) f (Finset.univ : Finset (Fin B)))
    (funext fun k => congrArg x (lift_last3 h n p k))

end Idealize.ShloMosaic.RowDots

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPayloads.lean ====
/-
  The kernel body's values read at an index, over the extended reals.

  Write, for one grid point (batch n, query tile t): x1 for the tile's 256 query rows (width 1024), x2, x3
  for the query weights and bias, and kv for the carried buffer of 2048 rows whose columns 0..63 are the keys and
  64..127 the values. Then, for a local row r, a key row j and a head column h:
    * a query entry is        q r h = (Σ_e x1 (r, e) · x2 (e, h)) + x3 h;
    * a masked scaled score   s r j = (Σ_h q r h · kv (j, h)) · 1/8 if j ≤ 256·t + r, and 0 otherwise;
    * the softmax weight      w r j = exp (s r j − max_j' s r j');
    * the body's two results  (Σ_j w r j · kv (j, 64 + h)) and (Σ_j w r j), and their quotient is what it stores.
  The buffer itself, where the body fills it, holds (Σ_e x0 (k, e) · x4 (e, c)) + x5 c at row k, column c, for
  x0 the batch's whole sequence and x4, x5 the key and value weights side by side and their biases.

  Each operation is read at an index by its own lemma, outermost first: a cast between shapes keeps the row-major
  position, a broadcast reads the unit axis at 0, a slice shifts a column, a transpose swaps the coordinates, a
  matrix product into the zero accumulator is the sum over the contracted coordinate, a row reduction is the sum or
  the running maximum over the row, and the rounding to the narrower format is the identity on the extended reals.
-/
import proofs.«108188_j14173392077129_2_alg».proof.Proof.Gen.KernelIdeal.Skeleton
import proofs.«108188_j14173392077129_2_alg».proof.Proof.AttentionSpec
import proofs.«108188_j14173392077129_2_alg».proof.Proof.AttentionLaw
import proofs.«108188_j14173392077129_2_alg».proof.Proof.MaskWords
import proofs.«108188_j14173392077129_2_alg».proof.Proof.LibRowOps
import proofs.«108188_j14173392077129_2_alg».proof.Proof.LibRowDots
import proofs.«108188_j14173392077129_2_alg».proof.Proof.LibColumns
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-- Column h of the keys' half of the carried buffer. -/
abbrev colK (h : Fin 64) : Fin 128 := ⟨h.val, by omega⟩
/-- Column h of the values' half of the carried buffer. -/
abbrev colV (h : Fin 64) : Fin 128 := ⟨64 + h.val, by omega⟩

/-! ### Congruences on the extended reals -/

theorem eadd_congr {a a' b b' : EReal} (h1 : a = a') (h2 : b = b') : a + b = a' + b' := by rw [h1, h2]
theorem emul_congr {a a' b b' : EReal} (h1 : a = a') (h2 : b = b') : a * b = a' * b' := by rw [h1, h2]
theorem esub_congr {a a' b b' : EReal} (h1 : a = a') (h2 : b = b') : a - b = a' - b' := by rw [h1, h2]
theorem ediv_congr {a a' b b' : EReal} (h1 : a = a') (h2 : b = b') : Ideal.div a b = Ideal.div a' b' := by rw [h1, h2]

/-! ### The projection stored into the carried buffer -/

/-- The projection the body stores into the carried buffer, at row k and column c. -/
theorem pay2_apply (x0 : Vec Ideal S1x2048x1024 .f32) (x4 : Vec Ideal S1024x128 .f32) (x5 : Vec Ideal S128 .f32)
    (k : Fin 2048) (c : Fin 128) :
    k0_pay2 x0 x4 x5 (ix2 k c) = (∑ e : Fin 1024, x0 (ix3 (0 : Fin 1) k e) * x4 (ix2 e c)) + x5 (ix1 c) := by
  unfold k0_pay2
  refine (congrFun (shapeCast_self _ _) (ix2 k c)).trans ?_
  refine (truncf_apply (φ := .f32) (ψ := .bf16) _ _ _).trans ?_
  refine (addf_apply _ _ _).trans ?_
  refine eadd_congr ?_ ?_
  · refine (RowOps.matmul_zero_plain_apply dot_S2048x1024_S1024x128_S2048x128_1_0_0_1_n_n ⟨_, rfl⟩ none _ _ k c).trans ?_
    refine Finset.sum_congr rfl fun e _ => emul_congr ?_ ?_
    · exact shapeCast_1ab_ab_apply x0 _ k e
    · exact congrFun (shapeCast_self x4 _) (ix2 e c)
  · refine (broadcastTo_1b_ab_apply _ _ k c).trans ?_
    refine (shapeCast_a_1a_apply _ _ (0 : Fin 1) c).trans ?_
    exact congrFun (shapeCast_self x5 _) (ix1 c)

/-! ### The pieces of the scores -/

/-- A query entry of the tile: row r of x1 against column h of x2, plus the bias. -/
theorem qrow_apply (x1 : Vec Ideal S1x256x1024 .f32) (x2 : Vec Ideal S1024x64 .f32) (x3 : Vec Ideal S64 .f32)
    (r : Fin 256) (h : Fin 64) :
    (truncf .bf16 (addf (matmul dot_S256x1024_S1024x64_S256x64_1_0_0_1_n_n none
          (truncf .bf16 (shapeCast S256x1024 x1 shapeCasts_S1x256x1024_S256x1024) bitsLt_bf16_f32)
          (truncf .bf16 x2 bitsLt_bf16_f32) (constant S256x64 .f32 0x00000000#32))
        (broadcastTo S256x64 (shapeCast S1x64 x3 shapeCasts_S64_S1x64) broadcasts_S1x64_S256x64))
      bitsLt_bf16_f32 : FVec Ideal S256x64 .bf16) (ix2 r h)
      = (∑ e : Fin 1024, x1 (ix3 (0 : Fin 1) r e) * x2 (ix2 e h)) + x3 (ix1 h) := by
  refine (truncf_apply (φ := .f32) (ψ := .bf16) _ _ _).trans ?_
  refine (addf_apply _ _ _).trans ?_
  refine eadd_congr ?_ ?_
  · refine (RowOps.matmul_zero_plain_apply dot_S256x1024_S1024x64_S256x64_1_0_0_1_n_n ⟨_, rfl⟩ none _ _ r h).trans ?_
    exact Finset.sum_congr rfl fun e _ => emul_congr (shapeCast_1ab_ab_apply x1 _ r e) rfl
  · exact (broadcastTo_1b_ab_apply _ _ r h).trans (shapeCast_a_1a_apply x3 _ (0 : Fin 1) h)

/-- The transposed keys' half of the carried buffer, at (h, j): the buffer at row j, column h. -/
theorem keysT_apply (kv : Vec Ideal S2048x128 .bf16) (h : Fin 64) (j : Fin 2048) :
    transpose S64x2048 [1, 0] (extractStridedSlice S2048x64 ![0, 0] kv slices_S2048x128_o0_0_S2048x64)
      transposes_S2048x64_p1_0_S64x2048 (ix2 h j) = kv (ix2 j (colK h)) :=
  (transpose_ix2_apply _ _ h j).trans (slice2_axis1_apply 0 kv _ j h (colK h) (Nat.zero_add _).symm)

/-- The select on the signed comparison of the column's word against the row's word, at (r, j): the entry where
    j ≤ 256·b + r, and 0 elsewhere. -/
theorem masked_apply (b : Nat) (hb : b < 8) (I1 I0 : IVec S256x2048 32) (S : FVec Ideal S256x2048 .f32)
    (z : Ideal .f32) (hz : z = 0) (r : Fin 256) (j : Fin 2048)
    (e1 : I1 (ix2 r j) = BitVec.ofNat 32 j.val) (e0 : I0 (ix2 r j) = BitVec.ofNat 32 r.val) :
    select (cmpi .sle I1 (addi (broadcast S256x2048 (Scalar.muli (BitVec.ofNat 32 b) 256#32)) I0)) S
        (broadcast S256x2048 z) (ix2 r j)
      = if j.val ≤ b * 256 + r.val then S (ix2 r j) else 0 := by
  show Scalar.select (IntOp.cmpi .sle (I1 (ix2 r j))
      (IntOp.addi (Scalar.muli (BitVec.ofNat 32 b) 256#32) (I0 (ix2 r j)))) (S (ix2 r j)) z = _
  rw [e1, e0, hz]
  exact Attention.MaskWords.select_sle j.val b r.val j.isLt hb r.isLt _ _

/-- The softmax weight of a row, from the row of scores: subtract the row's running maximum from -∞, then exp. -/
theorem softmax_row_apply (V : FVec Ideal S256x2048 .f32) (s : Fin 2048 → EReal) (r : Fin 256)
    (hV : ∀ j, V (ix2 r j) = s j) (j : Fin 2048) :
    exp (subf V (broadcastTo S256x2048 (shapeCast S256x1 (multiReduction .maximumf [1] S256 V 0xFF800000#32
        reduces_S256x2048_S256 (.inl rfl) rfl) shapeCasts_S256_S256x1) broadcasts_S256x1_S256x2048)) (ix2 r j)
      = Attention.weight s j := by
  have hmax : broadcastTo S256x2048 (shapeCast S256x1 (multiReduction .maximumf [1] S256 V 0xFF800000#32
        reduces_S256x2048_S256 (.inl rfl) rfl) shapeCasts_S256_S256x1) broadcasts_S256x1_S256x2048 (ix2 r j)
      = Attention.rowMax s := by
    refine (ValueIdx.broadcastTo_a1_ab_apply _ _ r j).trans ?_
    refine (ValueIdx.shapeCast_a_a1_apply _ _ r (0 : Fin 1)).trans ?_
    refine (RowDots.rowMax_apply V 0xFF800000#32 reduces_S256x2048_S256 (.inl rfl) rfl r).trans ?_
    show Finset.fold max (Ideal.ofBits .f32 0xFF800000#32) (fun k => V (ix2 r k)) Finset.univ
      = Finset.fold max ⊥ s Finset.univ
    rw [Attention.negInf_eq, show (fun k => V (ix2 r k)) = s from funext hV]
  unfold Attention.weight
  exact congrArg Ideal.exp (esub_congr (hV j) hmax)

/-! ### The weights, their sum, and the weighted sum of a value column -/

/-- The body's weights at (r, j): the softmax weight of the masked, scaled score row of global row R. -/
theorem pay3_apply (i : grid0.Coords) (x1 : Vec Ideal S1x256x1024 .f32) (x2 : Vec Ideal S1024x64 .f32)
    (x3 : Vec Ideal S64 .f32) (kv : Vec Ideal S2048x128 .bf16) (r : Fin 256) (R : Fin 2048)
    (hR : R.val = (i 1).val * 256 + r.val) (Q K : Fin 2048 → Fin 64 → EReal)
    (hq : ∀ h' : Fin 64, (∑ e : Fin 1024, x1 (ix3 (0 : Fin 1) r e) * x2 (ix2 e h')) + x3 (ix1 h') = Q R h')
    (hk : ∀ (j : Fin 2048) (h' : Fin 64), kv (ix2 j (colK h')) = K j h') (j : Fin 2048) :
    k0_pay3 i x1 x2 x3 kv (ix2 r j) = Attention.weight (Attention.score Attention.scaleWord Q K R) j := by
  unfold k0_pay3
  refine softmax_row_apply _ _ r (fun j' => ?_) j
  refine (masked_apply (i 1).val (i 1).isLt (iota .tc S256x2048 32 [1] iota_S256x2048_d1_w32)
    (iota .tc S256x2048 32 [0] iota_S256x2048_d0_w32) _ _ Ideal.ofBits_zero_f32 r j'
    (iota_single_apply .tc S256x2048 32 1 _ (ix2 r j')) (iota_single_apply .tc S256x2048 32 0 _ (ix2 r j'))).trans ?_
  refine Eq.trans ?_ (show (if j'.val ≤ (i 1).val * 256 + r.val
      then (∑ h' : Fin 64, Q R h' * K j' h') * Attention.scaleWord else 0)
      = Attention.score Attention.scaleWord Q K R j' from by unfold Attention.score; rw [hR])
  refine if_congr Iff.rfl ?_ rfl
  refine (mulf_apply _ _ _).trans ?_
  refine emul_congr ?_ rfl
  refine (RowOps.matmul_zero_plain_apply dot_S256x64_S64x2048_S256x2048_1_0_0_1_n_n ⟨_, rfl⟩ none _ _ r j').trans ?_
  refine Finset.sum_congr rfl fun h' _ => emul_congr ?_ ?_
  · exact (qrow_apply x1 x2 x3 r h').trans (hq h')
  · exact (keysT_apply kv h' j').trans (hk j' h')

/-- The body's weighted sum of value column h, at (r, h). -/
theorem pay4_apply (i : grid0.Coords) (x1 : Vec Ideal S1x256x1024 .f32) (x2 : Vec Ideal S1024x64 .f32)
    (x3 : Vec Ideal S64 .f32) (kv : Vec Ideal S2048x128 .bf16) (r : Fin 256) (h : Fin 64) (R : Fin 2048)
    (hR : R.val = (i 1).val * 256 + r.val) (Q K : Fin 2048 → Fin 64 → EReal) (Vh : Fin 2048 → EReal)
    (hq : ∀ h' : Fin 64, (∑ e : Fin 1024, x1 (ix3 (0 : Fin 1) r e) * x2 (ix2 e h')) + x3 (ix1 h') = Q R h')
    (hk : ∀ (j : Fin 2048) (h' : Fin 64), kv (ix2 j (colK h')) = K j h')
    (hv : ∀ j : Fin 2048, kv (ix2 j (colV h)) = Vh j) :
    k0_pay4 i x1 x2 x3 kv (ix2 r h)
      = ∑ j : Fin 2048, Attention.weight (Attention.score Attention.scaleWord Q K R) j * Vh j := by
  unfold k0_pay4
  refine (RowOps.matmul_zero_plain_apply dot_S256x2048_S2048x64_S256x64_1_0_0_1_n_n ⟨_, rfl⟩ none _ _ r h).trans ?_
  refine Finset.sum_congr rfl fun j _ => emul_congr ?_ ?_
  · exact (truncf_apply (φ := .f32) (ψ := .bf16) _ _ _).trans (pay3_apply i x1 x2 x3 kv r R hR Q K hq hk j)
  · exact (slice2_axis1_apply 64 kv _ j h (colV h) rfl).trans (hv j)

/-- The body's sum of the weights of row r, repeated along the head columns. -/
theorem pay5_apply (i : grid0.Coords) (x1 : Vec Ideal S1x256x1024 .f32) (x2 : Vec Ideal S1024x64 .f32)
    (x3 : Vec Ideal S64 .f32) (kv : Vec Ideal S2048x128 .bf16) (r : Fin 256) (h : Fin 64) (R : Fin 2048)
    (hR : R.val = (i 1).val * 256 + r.val) (Q K : Fin 2048 → Fin 64 → EReal)
    (hq : ∀ h' : Fin 64, (∑ e : Fin 1024, x1 (ix3 (0 : Fin 1) r e) * x2 (ix2 e h')) + x3 (ix1 h') = Q R h')
    (hk : ∀ (j : Fin 2048) (h' : Fin 64), kv (ix2 j (colK h')) = K j h') :
    k0_pay5 i x1 x2 x3 kv (ix2 r h)
      = ∑ j : Fin 2048, Attention.weight (Attention.score Attention.scaleWord Q K R) j := by
  unfold k0_pay5
  refine (ValueIdx.broadcastTo_a1_ab_apply _ _ r h).trans ?_
  refine (ValueIdx.shapeCast_a_a1_apply _ _ r (0 : Fin 1)).trans ?_
  refine (RowDots.rowSum_apply (φ := .f32) _ 0x00000000#32 reduces_S256x2048_S256 (.inl rfl) rfl r).trans ?_
  exact Finset.sum_congr rfl fun j _ => pay3_apply i x1 x2 x3 kv r R hR Q K hq hk j

/-! ### What the body stores -/

/-- The stored tile at (u, r, h): the quotient of the weighted sum of value column h by the sum of the weights, for
    the masked, scaled score row of global row R. -/
theorem out_apply (i : grid0.Coords) (x1 : Vec Ideal S1x256x1024 .f32) (x2 : Vec Ideal S1024x64 .f32)
    (x3 : Vec Ideal S64 .f32) (kv : Vec Ideal S2048x128 .bf16) (u : Fin 1) (r : Fin 256) (h : Fin 64) (R : Fin 2048)
    (hR : R.val = (i 1).val * 256 + r.val) (Q K : Fin 2048 → Fin 64 → EReal) (Vh : Fin 2048 → EReal)
    (hq : ∀ h' : Fin 64, (∑ e : Fin 1024, x1 (ix3 (0 : Fin 1) r e) * x2 (ix2 e h')) + x3 (ix1 h') = Q R h')
    (hk : ∀ (j : Fin 2048) (h' : Fin 64), kv (ix2 j (colK h')) = K j h')
    (hv : ∀ j : Fin 2048, kv (ix2 j (colV h)) = Vh j) :
    k0_pay1 (k0_pay4 i x1 x2 x3 kv) (k0_pay5 i x1 x2 x3 kv) (ix3 u r h)
      = Attention.quotOfSum (Attention.score Attention.scaleWord Q K R) Vh := by
  have h4 := pay4_apply i x1 x2 x3 kv r h R hR Q K Vh hq hk hv
  have h5 := pay5_apply i x1 x2 x3 kv r h R hR Q K hq hk
  unfold k0_pay1
  unfold Attention.quotOfSum Attention.denom
  exact (shapeCast_ab_1ab_apply _ _ u r h).trans (ediv_congr h4 h5)

end Cert.KernelIdeal.Payloads

end
-- ==== Proof.KernelValue.lean ====
/-
  The kernel's result array, as one function of the argument arrays.

  The kernel runs its body at 64 grid points, batch by batch and, within a batch, query tile by query tile. A buffer
  carried from point to point holds the batch's keys and values: the body fills it at the batch's first tile and
  leaves it alone at the other seven, so after every point it holds the keys and values of that point's batch (an
  induction over the points). Hence what each point writes back, whichever of its two cases it is in, is the
  specification's block of the result — attention with the division done once per entry, scale 1/8 — at the point's
  batch and rows. The 64 blocks are disjoint and cover the array, so the array after the run is that function.
-/
import proofs.«108188_j14173392077129_2_alg».proof.Proof.Gen.KernelIdeal.Value
import proofs.«108188_j14173392077129_2_alg».proof.Proof.KernelPieces
import proofs.«108188_j14173392077129_2_alg».proof.Proof.KernelBlocks
import proofs.«108188_j14173392077129_2_alg».proof.Proof.KernelPayloads
import proofs.«108188_j14173392077129_2_alg».proof.Proof.AttentionSpec
import Idealize.ShloMosaic.Lib.Pipeline.Value
import Idealize.ShloMosaic.Lib.ValueIdx
import Idealize.ShloMosaic.Lib.StableHlo.Run

noncomputable section

open scoped BigOperators
open Idealize.ShloMosaic Idealize.ShloMosaic.TcCoe Idealize.SL.Sem

namespace Cert.KernelIdeal.Final

open Cert.KernelIdeal Cert.KernelIdeal.Gen Cert.KernelIdeal.Value Idealize.ShloMosaic.ValueIdx
open Idealize.ShloMosaic.Pipeline (Dat)

variable (m : (ℓ : Loc nD τ sig) → Buf (Elt Ideal) ℓ) (ρ : Dev nD → PrngReg)

/-- The eight argument arrays as launched, typed as the specification reads them. -/
abbrev aX (c : Dev nD) : Attention.SX.Idx → EReal := m ((c : Thread nD τ).loc main_arg0)
abbrev aY (c : Dev nD) : Attention.SX.Idx → EReal := m ((c : Thread nD τ).loc main_arg1)
abbrev aWq (c : Dev nD) : Attention.SW.Idx → EReal := m ((c : Thread nD τ).loc main_arg2)
abbrev abq (c : Dev nD) : Attention.SB.Idx → EReal := m ((c : Thread nD τ).loc main_arg3)
abbrev aWk (c : Dev nD) : Attention.SW.Idx → EReal := m ((c : Thread nD τ).loc main_arg4)
abbrev abk (c : Dev nD) : Attention.SB.Idx → EReal := m ((c : Thread nD τ).loc main_arg5)
abbrev aWv (c : Dev nD) : Attention.SW.Idx → EReal := m ((c : Thread nD τ).loc main_arg6)
abbrev abv (c : Dev nD) : Attention.SB.Idx → EReal := m ((c : Thread nD τ).loc main_arg7)

/-- What the result array ends holding: attention with the division done once per entry. -/
def G (c : Dev nD) : Attention.SO.Idx → EReal :=
  Attention.attnQuotOfSum Attention.scaleWord (aX m c) (aY m c) (aWq m c) (abq m c) (aWk m c) (abk m c) (aWv m c) (abv m c)

/-- The batch array of `x`, the key and value weights side by side and their biases end to end, as the kernel's
    region finds them. -/
abbrev vX (c : Dev nD) : Attention.SX.Idx → EReal := V m c main_arg0
abbrev vWkv (c : Dev nD) : (⟨2, ![1024, 128]⟩ : Shape).Idx → EReal := V m c main_v0
abbrev vbkv (c : Dev nD) : (⟨1, ![128]⟩ : Shape).Idx → EReal := V m c main_v1

/-- What the carried buffer holds for batch `b`: row `j` of the batch's sequence against column `col` of the key and
    value weights side by side, plus the bias. -/
def kvAt (c : Dev nD) (b : Fin 8) (j : Fin 2048) (col : Fin 128) : EReal :=
  (∑ e : Fin 1024, vX m c (ix3 b j e) * vWkv m c (ix2 e col)) + vbkv m c (ix1 col)

/-- Its first 64 columns are the keys. -/
theorem kvAt_keys (c : Dev nD) (b : Fin 8) (j : Fin 2048) (h : Fin 64) :
    kvAt m c b j (Payloads.colK h) = Attention.proj (aX m c) (aWk m c) (abk m c) b j h := by
  unfold kvAt Attention.proj
  exact congrArg₂ (fun a b : EReal => a + b) (Finset.sum_congr rfl fun e _ => congrArg₂ (fun a b : EReal => a * b)
    (congrFun (V_main_arg0 m c) _) (Blocks.V_v0_keys m c e h)) (Blocks.V_v1_keys m c h)

/-- Its last 64 columns are the values. -/
theorem kvAt_vals (c : Dev nD) (b : Fin 8) (j : Fin 2048) (h : Fin 64) :
    kvAt m c b j (Payloads.colV h) = Attention.proj (aX m c) (aWv m c) (abv m c) b j h := by
  unfold kvAt Attention.proj
  exact congrArg₂ (fun a b : EReal => a + b) (Finset.sum_congr rfl fun e _ => congrArg₂ (fun a b : EReal => a * b)
    (congrFun (V_main_arg0 m c) _) (Blocks.V_v0_vals m c e h)) (Blocks.V_v1_vals m c h)

/-- Where the body fills the carried buffer, it fills it with batch `t / 8`'s keys and values. -/
theorem filled (c : Dev nD) (t : Fin cfg0.N) (b : Fin 8) (hb : b.val = t.val / 8) (j : Fin 2048) (col : Fin 128) :
    k0_pay2 (iblk m c 0 t) (iblk m c 4 t) (iblk m c 5 t) (ix2 j col) = kvAt m c b j col :=
  (Payloads.pay2_apply (iblk m c 0 t) (iblk m c 4 t) (iblk m c 5 t) j col).trans
    (congrArg₂ (fun a b : EReal => a + b) (Finset.sum_congr rfl fun e _ => congrArg₂ (fun a b : EReal => a * b)
      (Blocks.iblk0_apply m c t j e b hb) (Blocks.iblk4_apply m c t e col)) (Blocks.iblk5_apply m c t col))

/-- After every point the carried buffer holds the keys and values of the point's batch: filled at the batch's first
    query tile, kept at the others. By induction on the point. -/
theorem carried (c : Dev nD) : ∀ (n : ℕ) (hn : n < cfg0.N) (b : Fin 8) (hb : b.val = n / 8) (j : Fin 2048) (col : Fin 128),
    (outsAt0 m c n hn).2 (ix2 j col) = kvAt m c b j col := by
  intro n
  induction n with
  | zero =>
    intro hn b hb j col
    rw [outsAt0_A m c ⟨0, hn⟩ rfl]
    dsimp only
    rw [Pieces.scratch_A]
    exact filled m c ⟨0, hn⟩ b hb j col
  | succ n ih =>
    intro hn b hb j col
    by_cases h0 : (n + 1) % 8 = 0
    · rw [outsAt0_A m c ⟨n + 1, hn⟩ h0]
      dsimp only
      rw [Pieces.scratch_A]
      exact filled m c ⟨n + 1, hn⟩ b hb j col
    · rw [outsAt0_B m c ⟨n + 1, hn⟩ h0]
      dsimp only
      unfold sout0_B_0
      exact ih (Nat.lt_of_succ_lt hn) b (by omega) j col

/-- The output tile of point `t`, computed over a carried buffer that holds the batch's keys and values, is the
    specification's entry at batch `t / 8`, row `256 · (t % 8) + r`. -/
theorem point_value (c : Dev nD) (t : Fin cfg0.N) (u : Fin 1) (r : Fin 256) (h : Fin 64) (n : Fin 8) (R : Fin 2048)
    (hn : n.val = t.val / 8) (hR : R.val = (t.val % 8) * 256 + r.val)
    (kv : Vec Ideal S2048x128 .bf16) (hkv : ∀ j col, kv (ix2 j col) = kvAt m c n j col) :
    k0_pay1 (k0_pay4 (grid0.coords t) (iblk m c 1 t) (iblk m c 2 t) (iblk m c 3 t) kv)
        (k0_pay5 (grid0.coords t) (iblk m c 1 t) (iblk m c 2 t) (iblk m c 3 t) kv) (ix3 u r h)
      = G m c (ix3 n R h) := by
  obtain ⟨-, -, -, -, -, -, -, -, -, -, -, -, -, -, -, hi1⟩ := Blocks.idx_facts t
  refine (Payloads.out_apply (grid0.coords t) (iblk m c 1 t) (iblk m c 2 t) (iblk m c 3 t) kv u r h R
    (by rw [hi1]; exact hR)
    (Attention.proj (aY m c) (aWq m c) (abq m c) n) (Attention.proj (aX m c) (aWk m c) (abk m c) n)
    (fun j => Attention.proj (aX m c) (aWv m c) (abv m c) n j h) ?_ ?_ ?_).trans rfl
  · intro h'
    unfold Attention.proj
    exact congrArg₂ (fun a b : EReal => a + b) (Finset.sum_congr rfl fun e _ => congrArg₂ (fun a b : EReal => a * b)
      ((Blocks.iblk1_apply m c t r e n R hn hR).trans (congrFun (V_main_arg1 m c) _))
      ((Blocks.iblk2_apply m c t e h').trans (congrFun (V_main_arg2 m c) _)))
      ((Blocks.iblk3_apply m c t h').trans (congrFun (V_main_arg3 m c) _))
  · intro j h'
    exact (hkv j _).trans (kvAt_keys m c n j h')
  · intro j
    exact (hkv j _).trans (kvAt_vals m c n j h)

/-- What point `t` writes back, at a local index, in both cases of the body. -/
theorem flushed_apply (c : Dev nD) (t : Fin cfg0.N) (u : Fin 1) (r : Fin 256) (h : Fin 64) (n : Fin 8) (R : Fin 2048)
    (hn : n.val = t.val / 8) (hR : R.val = (t.val % 8) * 256 + r.val) :
    ((dats m 0 c).flushed 6 t : Vec Ideal S1x256x64 .f32) (ix3 u r h) = G m c (ix3 n R h) := by
  by_cases h0 : t.val % 8 = 0
  · rw [flushed6_A m c t h0, Pieces.out_A]
    exact point_value m c t u r h n R hn hR _ (fun j col => filled m c t n hn j col)
  · rw [flushed6_B m c t h0, Pieces.out_B]
    exact point_value m c t u r h n R hn hR _
      (fun j col => carried m c (t.val - 1) (Nat.lt_of_le_of_lt (Nat.sub_le _ _) t.isLt) n (by omega) j col)

/-- So what point `t` writes back is block `t` of the result array. -/
theorem flushed_eq (c : Dev nD) (t : Fin cfg0.N) :
    (dats m 0 c).flushed 6 t = ((cfg0.win 6).blk t).view.read (Elt Ideal) (G m c) := by
  have hN : t.val < 64 := lt_of_lt_of_eq t.isLt (show cfg0.N = 64 from N_0)
  funext y
  obtain ⟨u, r, h, rfl⟩ : ∃ (u : Fin 1) (r : Fin 256) (h : Fin 64), y = ix3 u r h := ⟨y 0, y 1, y 2, eq_ix3 y⟩
  rw [View.read_apply, Blocks.emb6 t u r h ⟨t.val / 8, by omega⟩ ⟨(t.val % 8) * 256 + r.val, by omega⟩ rfl rfl]
  exact flushed_apply m c t u r h _ _ rfl rfl

/-- An index of the result array is in point `t`'s block iff every coordinate is in the block's range. -/
theorem mem_blk (t : Fin cfg0.N) (i : S8x2048x64.Idx) :
    i ∈ ((cfg0.win 6).blk t).view.set ↔ ∀ a : Fin 3, win0_6.index t a * S1x256x64.size a ≤ (i a).val
      ∧ (i a).val < win0_6.index t a * S1x256x64.size a + S1x256x64.size a := by
  show i ∈ ((View.whole main_v2).slice (win0_6.rect t)).set ↔ _
  rw [View.set_slice_whole, Rect.mem_set_unit]
  exact Iff.rfl

/-- Every index of the result array is in the block of the point of its batch and query tile. -/
theorem cover (i : S8x2048x64.Idx) :
    ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 64 := (i 2).isLt
  have hN : cfg0.N = 64 := N_0
  have hlt : (i 0).val * 8 + (i 1).val / 256 < cfg0.N := by omega
  refine ⟨⟨(i 0).val * 8 + (i 1).val / 256, hlt⟩, flush0_6 _, ?_⟩
  rw [mem_blk]
  obtain ⟨-, -, -, -, -, -, -, -, -, -, -, -, e0, e1, e2, -⟩ := Blocks.idx_facts (⟨(i 0).val * 8 + (i 1).val / 256, hlt⟩ : Fin cfg0.N)
  intro a
  match a with
  | ⟨0, _⟩ =>
    show win0_6.index _ (0 : Fin 3) * 1 ≤ (i 0).val ∧ (i 0).val < win0_6.index _ (0 : Fin 3) * 1 + 1
    rw [e0]; dsimp only; omega
  | ⟨1, _⟩ =>
    show win0_6.index _ (1 : Fin 3) * 256 ≤ (i 1).val ∧ (i 1).val < win0_6.index _ (1 : Fin 3) * 256 + 256
    rw [e1]; dsimp only; omega
  | ⟨2, _⟩ =>
    show win0_6.index _ (2 : Fin 3) * 64 ≤ (i 2).val ∧ (i 2).val < win0_6.index _ (2 : Fin 3) * 64 + 64
    rw [e2]; omega

/-- The result array after the run. -/
theorem final (c : Dev nD) : (dats m 0 c).arrAt 6 cfg0.N = G m c :=
  (dats m 0 c).arrAt_eq_of_cover 6 (G m c) (fun t _ => flushed_eq m c t) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Final

end
-- ==== Proof.ReferenceStages.lean ====
/-
  The reference program's value, stage by stage, as functions of its arguments.

  The program is a straight line of host operations: three linear projections (queries from the second argument,
  keys and values from the first), the scale 1 / √64, the scaled scores, the lower-triangular mask (a comparison of a
  row iota with a column iota, broadcast over the batches, selecting the score or zero), the softmax along the last
  axis (maximum from -∞, difference, exponential, sum from zero, quotient), and the product of the normalised weights
  with the values. Each stage is named once here, so that a value read by two later operations (the masked scores, the
  exponentials) is written once.
-/
import proofs.«108188_j14173392077129_2_alg».proof.Proof.Gen.ReferenceIdeal

noncomputable section

namespace Cert.ReferenceIdeal.Stages

open Cert.ReferenceIdeal Cert.ReferenceIdeal.Gen Idealize.ShloMosaic

variable {F : FTy → Type} [FloatOps F]

/-- A linear projection with its bias broadcast over batches and rows. -/
def proj (x : FVec F S8x2048x1024 .f32) (W : FVec F S1024x64 .f32) (b : FVec F S64 .f32) : FVec F S8x2048x64 .f32 :=
  addf (Host.dotGeneral dot_S8x2048x1024_S1024x64_S8x2048x64_2_0_01_1_n_n none x W)
    (broadcastInDim S8x2048x64 ![0, 1, 2] bcast_S1x1x64_S8x2048x64_0_1_2 (broadcastInDim S1x1x64 ![2] bcast_S64_S1x1x64_2 b))

/-- The scale, 1 / √64, as a scalar. -/
def scale : FVec F S_ .f32 :=
  Host.divf (constant S_ .f32 0x3F800000#32) (Host.sqrt (constant S_ .f32 0x42800000#32))

/-- The scaled scores of every query row against every key row, batch by batch. -/
def scores (q k : FVec F S8x2048x64 .f32) : FVec F S8x2048x2048 .f32 :=
  mulf (Host.dotGeneral dot_S8x2048x64_S8x2048x64_S8x2048x2048_2_2_1_1_0_0 none q k)
    (broadcastInDim S8x2048x2048 ![] bcast_S_S8x2048x2048 scale)

/-- The lower triangle, as a bit per (batch, row, column): row + 0 ≥ column. -/
def lower : IVec S8x2048x2048 1 :=
  broadcastInDim S8x2048x2048 ![1, 2] bcast_S2048x2048_S8x2048x2048_1_2
    (cmpi .sge (addi (iotaInDim S2048x2048 32 0) (broadcastInDim S2048x2048 ![] bcast_S_S2048x2048 (constantI S_ 32 0#32)))
      (iotaInDim S2048x2048 32 1))

/-- The scores kept on the lower triangle and zero elsewhere. -/
def masked (s : FVec F S8x2048x2048 .f32) : FVec F S8x2048x2048 .f32 :=
  select lower s (broadcastInDim S8x2048x2048 ![] bcast_S_S8x2048x2048 (constant S_ .f32 0x00000000#32))

/-- The exponentials of the scores less their row maximum (the maximum taken from -∞, and against -∞ once more). -/
def expd (s : FVec F S8x2048x2048 .f32) : FVec F S8x2048x2048 .f32 :=
  Host.exp (subf s (broadcastInDim S8x2048x2048 ![0, 1, 2] bcast_S8x2048x1_S8x2048x2048_0_1_2
    (broadcastInDim S8x2048x1 ![0, 1] bcast_S8x2048_S8x2048x1_0_1
      (maximumf (broadcastInDim S8x2048 ![] bcast_S_S8x2048 (constant S_ .f32 0xFF800000#32))
        (Host.reduce FloatOps.maximumf s (constant S_ .f32 0xFF800000#32) reducesTo_S8x2048x2048_S8x2048_d2 h_S_)))))

/-- The exponentials divided by their row sums (the sums taken from zero), against the values. -/
def weighted (p : FVec F S8x2048x2048 .f32) (v : FVec F S8x2048x64 .f32) : FVec F S8x2048x64 .f32 :=
  Host.dotGeneral dot_S8x2048x2048_S8x2048x64_S8x2048x64_2_1_1_2_0_0 none
    (Host.divf p (broadcastInDim S8x2048x2048 ![0, 1, 2] bcast_S8x2048x1_S8x2048x2048_0_1_2
      (broadcastInDim S8x2048x1 ![0, 1] bcast_S8x2048_S8x2048x1_0_1
        (Host.reduceAdd p (constant S_ .f32 0x00000000#32) reducesTo_S8x2048x2048_S8x2048_d2 h_S_)))) v

/-- The program's result as a function of its eight arguments. -/
def refOut (x0 x1 : FVec F S8x2048x1024 .f32) (x2 : FVec F S1024x64 .f32) (x3 : FVec F S64 .f32) (x4 : FVec F S1024x64 .f32)
    (x5 : FVec F S64 .f32) (x6 : FVec F S1024x64 .f32) (x7 : FVec F S64 .f32) : FVec F S8x2048x64 .f32 :=
  weighted (expd (masked (scores (proj x1 x2 x3) (proj x0 x4 x5)))) (proj x0 x6 x7)

end Cert.ReferenceIdeal.Stages

end
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.LibSeqChain.lean ====
/-
  Straight lines of host operations run one after the other.

  * A property that holds of every element of two lists holds of every element of the two end to end.
  * A line followed by nothing is the line.
  * Any number of lines run one after the other are their concatenation run as one line
    (`chain_map_seq`). This is what lets a program that calls a function in the middle of a straight line be stated
    as a few items in a row — the operations before the call, the callee's body, the operations after it, each
    compared with the program an operation at a time — and only then glued into one line; an equation between the
    program and the one line that crosses the call is not compared that way (the callee's name stands on one side only).
-/
import Idealize.ShloMosaic.Lib.StableHlo.Run
import Idealize.ShloMosaic.Lib.Pipeline.Regions

noncomputable section

namespace Idealize.ShloMosaic.StableHlo

open Idealize.ShloMosaic Idealize.SL.Sem

variable {nD : Nat} {τ : Topo} {sig : RefSig} {Val : EltTy → Type} {Λ : Labels}

/-- A property of every element of two lists holds of every element of the two end to end. -/
theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x)
    (List.forall_iff_forall_mem.mp h₂ x)

/-- A line followed by nothing is the line. -/
theorem seq_bind_pure (l : List (HloOp τ sig Val)) :
    ((seq l : Prog (TpuEff nD τ sig Val Λ .tc) PUnit) >>= fun _ => pure ⟨⟩) = seq l := by
  have h := seq_append (nD := nD) (Λ := Λ) l ([] : List (HloOp τ sig Val))
  rw [List.append_nil] at h
  exact h.symm

/-- Lines run one after the other are their concatenation run as one line. -/
theorem chain_map_seq (ls : List (List (HloOp τ sig Val))) :
    (Pipeline.chain (ls.map seq) : Prog (TpuEff nD τ sig Val Λ .tc) PUnit) = seq ls.flatten := by
  induction ls with
  | nil => rfl
  | cons l ls ih => simp only [List.map_cons, Pipeline.chain_cons, List.flatten_cons, seq_append, ih]

/-- Five lines run one after the other are their concatenation run as one. -/
theorem chain_five (a b c d e : List (HloOp τ sig Val)) :
    (Pipeline.chain [seq a, seq b, seq c, seq d, seq e] : Prog (TpuEff nD τ sig Val Λ .tc) PUnit)
      = seq (a ++ (b ++ (c ++ (d ++ e)))) := by
  have h := chain_map_seq (nD := nD) (Λ := Λ) [a, b, c, d, e]
  simpa only [List.map_cons, List.map_nil, List.flatten_cons, List.flatten_nil, List.append_nil] using h

end Idealize.ShloMosaic.StableHlo

end
-- ==== Proof.ReferenceRun.lean ====
/-
  The reference program's run, read back by hand.

  The program is a straight line of forty-four host operations, ten of them the body of a function it calls once (the
  lower-triangular mask). Every weakly fair execution of it terminates with each buffer at the fold of the operations'
  results over the launch contents. The program and the list of its operations differ in where the called function's
  definition stands — by name in the program, unfolded in the list —, and an equation between them that crosses the
  call is not compared an operation at a time. So the program is first stated as five items in a row — the projections, the scores, the call, the exponentials, the weighted sum —,
  the call's body as its ten operations, and the five lines glued end to end; and the result buffer is read back one
  stretch at a time: each stretch leaves in the few buffers the next ones read the stage's function (ReferenceStages)
  of what it found, and passes the other buffers on untouched. The arguments are written by no operation.
-/
import proofs.«108188_j14173392077129_2_alg».proof.Proof.ReferenceStages
import proofs.«108188_j14173392077129_2_alg».proof.Proof.LibTypedRefs
import proofs.«108188_j14173392077129_2_alg».proof.Proof.LibSeqChain
import Idealize.ShloMosaic.Lib.StableHlo.Run
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The three projections: twelve operations. -/
abbrev opsProj : List (HloOp τ sig (Elt F)) :=
  [ binary main_arg1 main_arg2 main_v0 ((fun l r => Host.dotGeneral dot_S8x2048x1024_S1024x64_S8x2048x64_2_0_01_1_n_n none l r) : (⟨S8x2048x1024, .f32⟩ : BufTy).Contents (Elt F) → (⟨S1024x64, .f32⟩ : BufTy).Contents (Elt F) → (⟨S8x2048x64, .f32⟩ : BufTy).Contents (Elt F)),
    unary main_arg3 main_v1 (broadcastInDim S1x1x64 ![2] bcast_S64_S1x1x64_2 : (⟨S64, .f32⟩ : BufTy).Contents (Elt F) → (⟨S1x1x64, .f32⟩ : BufTy).Contents (Elt F)),
    unary main_v1 main_v2 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v0 main_v2 main_v3 (addf : (⟨S8x2048x64, .f32⟩ : BufTy).Contents (Elt F) → (⟨S8x2048x64, .f32⟩ : BufTy).Contents (Elt F) → (⟨S8x2048x64, .f32⟩ : BufTy).Contents (Elt F)),
    binary main_arg0 main_arg4 main_v4 ((fun l r => Host.dotGeneral dot_S8x2048x1024_S1024x64_S8x2048x64_2_0_01_1_n_n none l r) : (⟨S8x2048x1024, .f32⟩ : BufTy).Contents (Elt F) → (⟨S1024x64, .f32⟩ : BufTy).Contents (Elt F) → (⟨S8x2048x64, .f32⟩ : BufTy).Contents (Elt F)),
    unary main_arg5 main_v5 (broadcastInDim S1x1x64 ![2] bcast_S64_S1x1x64_2 : (⟨S64, .f32⟩ : BufTy).Contents (Elt F) → (⟨S1x1x64, .f32⟩ : BufTy).Contents (Elt F)),
    unary main_v5 main_v6 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v4 main_v6 main_v7 (addf : (⟨S8x2048x64, .f32⟩ : BufTy).Contents (Elt F) → (⟨S8x2048x64, .f32⟩ : BufTy).Contents (Elt F) → (⟨S8x2048x64, .f32⟩ : BufTy).Contents (Elt F)),
    binary main_arg0 main_arg6 main_v8 ((fun l r => Host.dotGeneral dot_S8x2048x1024_S1024x64_S8x2048x64_2_0_01_1_n_n none l r) : (⟨S8x2048x1024, .f32⟩ : BufTy).Contents (Elt F) → (⟨S1024x64, .f32⟩ : BufTy).Contents (Elt F) → (⟨S8x2048x64, .f32⟩ : BufTy).Contents (Elt F)),
    unary main_arg7 main_v9 (broadcastInDim S1x1x64 ![2] bcast_S64_S1x1x64_2 : (⟨S64, .f32⟩ : BufTy).Contents (Elt F) → (⟨S1x1x64, .f32⟩ : BufTy).Contents (Elt F)),
    unary main_v9 main_v10 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v8 main_v10 main_v11 (addf : (⟨S8x2048x64, .f32⟩ : BufTy).Contents (Elt F) → (⟨S8x2048x64, .f32⟩ : BufTy).Contents (Elt F) → (⟨S8x2048x64, .f32⟩ : BufTy).Contents (Elt F)) ]

/-- The scale and the scaled scores: seven operations. -/
abbrev opsScores : List (HloOp τ sig (Elt F)) :=
  [ nullary main_cst (constant S_ .f32 0x42800000#32),
    unary main_cst main_v12 (Host.sqrt : (⟨S_, .f32⟩ : BufTy).Contents (Elt F) → (⟨S_, .f32⟩ : BufTy).Contents (Elt F)),
    nullary main_cst_0 (constant S_ .f32 0x3F800000#32),
    binary main_cst_0 main_v12 main_v13 (Host.divf : (⟨S_, .f32⟩ : BufTy).Contents (Elt F) → (⟨S_, .f32⟩ : BufTy).Contents (Elt F) → (⟨S_, .f32⟩ : BufTy).Contents (Elt F)),
    binary main_v3 main_v7 main_v14 ((fun l r => Host.dotGeneral dot_S8x2048x64_S8x2048x64_S8x2048x2048_2_2_1_1_0_0 none l r) : (⟨S8x2048x64, .f32⟩ : BufTy).Contents (Elt F) → (⟨S8x2048x64, .f32⟩ : BufTy).Contents (Elt F) → (⟨S8x2048x2048, .f32⟩ : BufTy).Contents (Elt F)),
    unary main_v13 main_v15 (broadcastInDim S8x2048x2048 ![] bcast_S_S8x2048x2048 : (⟨S_, .f32⟩ : BufTy).Contents (Elt F) → (⟨S8x2048x2048, .f32⟩ : BufTy).Contents (Elt F)),
    binary main_v14 main_v15 main_v16 (mulf : (⟨S8x2048x2048, .f32⟩ : BufTy).Contents (Elt F) → (⟨S8x2048x2048, .f32⟩ : BufTy).Contents (Elt F) → (⟨S8x2048x2048, .f32⟩ : BufTy).Contents (Elt F)) ]

/-- The lower-triangular mask, a function the program calls once: its ten operations over the call's buffers. -/
abbrev opsMask : List (HloOp τ sig (Elt F)) :=
  [ TRef.nullary main_call0.v0 (iotaInDim S2048x2048 32 0),
    TRef.nullary main_call0.c (constantI S_ 32 0#32),
    TRef.unary main_call0.c main_call0.v1 (broadcastInDim S2048x2048 ![] bcast_S_S2048x2048),
    TRef.binary main_call0.v0 main_call0.v1 main_call0.v2 addi,
    TRef.nullary main_call0.v3 (iotaInDim S2048x2048 32 1),
    TRef.binary main_call0.v2 main_call0.v3 main_call0.v4 (cmpi .sge),
    TRef.unary main_call0.v4 main_call0.v5 (broadcastInDim S8x2048x2048 ![1, 2] bcast_S2048x2048_S8x2048x2048_1_2),
    TRef.nullary main_call0.cst (constant S_ .f32 0x00000000#32),
    TRef.unary main_call0.cst main_call0.v6 (broadcastInDim S8x2048x2048 ![] bcast_S_S8x2048x2048),
    TRef.ternary main_call0.v5 (.of main_v16) main_call0.v6 main_call0.v7 select ]

/-- The exponentials of the masked scores less their row maxima: nine operations. -/
abbrev opsExp : List (HloOp τ sig (Elt F)) :=
  [ nullary main_cst_1 (constant S_ .f32 0xFF800000#32),
    binary main_v17 main_cst_1 main_v18 ((fun x v => Host.reduce FloatOps.maximumf x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    nullary main_cst_2 (constant S_ .f32 0xFF800000#32),
    unary main_cst_2 main_v19 (broadcastInDim S8x2048 ![] bcast_S_S8x2048 : (⟨S_, .f32⟩ : BufTy).Contents (Elt F) → (⟨S8x2048, .f32⟩ : BufTy).Contents (Elt F)),
    binary main_v19 main_v18 main_v20 (maximumf : (⟨S8x2048, .f32⟩ : BufTy).Contents (Elt F) → (⟨S8x2048, .f32⟩ : BufTy).Contents (Elt F) → (⟨S8x2048, .f32⟩ : BufTy).Contents (Elt F)),
    unary main_v20 main_v21 (broadcastInDim S8x2048x1 ![0, 1] bcast_S8x2048_S8x2048x1_0_1 : (⟨S8x2048, .f32⟩ : BufTy).Contents (Elt F) → (⟨S8x2048x1, .f32⟩ : BufTy).Contents (Elt F)),
    unary main_v21 main_v22 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v17 main_v22 main_v23 (subf : (⟨S8x2048x2048, .f32⟩ : BufTy).Contents (Elt F) → (⟨S8x2048x2048, .f32⟩ : BufTy).Contents (Elt F) → (⟨S8x2048x2048, .f32⟩ : BufTy).Contents (Elt F)),
    unary main_v23 main_v24 (Host.exp : (⟨S8x2048x2048, .f32⟩ : BufTy).Contents (Elt F) → (⟨S8x2048x2048, .f32⟩ : BufTy).Contents (Elt F)) ]

/-- The row sums, the quotients and the product with the values: six operations. -/
abbrev opsOut : List (HloOp τ sig (Elt F)) :=
  [ nullary main_cst_3 (constant S_ .f32 0x00000000#32),
    binary main_v24 main_cst_3 main_v25 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    unary main_v25 main_v26 (broadcastInDim S8x2048x1 ![0, 1] bcast_S8x2048_S8x2048x1_0_1 : (⟨S8x2048, .f32⟩ : BufTy).Contents (Elt F) → (⟨S8x2048x1, .f32⟩ : BufTy).Contents (Elt F)),
    unary main_v26 main_v27 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v24 main_v27 main_v28 (Host.divf : (⟨S8x2048x2048, .f32⟩ : BufTy).Contents (Elt F) → (⟨S8x2048x2048, .f32⟩ : BufTy).Contents (Elt F) → (⟨S8x2048x2048, .f32⟩ : BufTy).Contents (Elt F)),
    binary main_v28 main_v11 main_v29 ((fun l r => Host.dotGeneral dot_S8x2048x2048_S8x2048x64_S8x2048x64_2_1_1_2_0_0 none l r) : (⟨S8x2048x2048, .f32⟩ : BufTy).Contents (Elt F) → (⟨S8x2048x64, .f32⟩ : BufTy).Contents (Elt F) → (⟨S8x2048x64, .f32⟩ : BufTy).Contents (Elt F)) ]

/-- The program's forty-four operations, in order. -/
abbrev ops : List (HloOp τ sig (Elt F)) := opsProj ++ (opsScores ++ (opsMask ++ (opsExp ++ opsOut)))

/-- The program is five items in a row: the projections, the scores, the called function's body over the call's
    buffers, the exponentials, the weighted sum. Each side unfolds to the same chain of steps, an item at a time. -/
theorem main_chain (c : Dev nD) : main (F := F) c
    = Pipeline.chain [seq opsProj, seq opsScores, fn_tril.body (.of main_v16) main_call0, seq opsExp, seq opsOut] := by
  chain_rfl

/-- The called function's body is its ten operations. -/
theorem mask_eq : fn_tril.body (F := F) (.of main_v16) main_call0 = seq opsMask := by
  chain_rfl

/-- So the program is its forty-four operations run as one line. -/
theorem main_eq (c : Dev nD) : main (F := F) c = seq ops :=
  (main_chain c).trans ((congrArg (fun x => Pipeline.chain [seq opsProj, seq opsScores, x, seq opsExp, seq opsOut]) mask_eq).trans
    (chain_five opsProj opsScores opsMask opsExp opsOut))

theorem scopedRefs_eq : (Finset.univ.filter fun b : Ref sig .tc => b.isScoped) = ∅ := by decide
theorem scopedSems_eq : (Finset.univ.filter fun sm : SemLoc sig => sm.isScoped .tc) = ∅ := by decide

theorem subProj : (opsProj : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., binary_bufs_sub .., binary_bufs_sub .., unary_bufs_sub .., unary_bufs_sub .., binary_bufs_sub ..⟩
theorem subScores : (opsScores : List (HloOp τ sig (Elt F))).Forall fun op => op.bufs ⊆ tcRefs τ sig :=
  ⟨nullary_bufs_sub .., unary_bufs_sub .., nullary_bufs_sub .., binary_bufs_sub .., binary_bufs_sub .., unary_bufs_sub ..,
    binary_bufs_sub ..⟩
theorem subMask : (opsMask : List (HloOp τ sig (Elt F))).Forall fun op => op.bufs ⊆ tcRefs τ sig :=
  ⟨nullary_bufs_sub .., nullary_bufs_sub .., unary_bufs_sub .., binary_bufs_sub .., nullary_bufs_sub .., binary_bufs_sub ..,
    unary_bufs_sub .., nullary_bufs_sub .., unary_bufs_sub .., ternary_bufs_sub ..⟩
theorem subExp : (opsExp : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., unary_bufs_sub ..⟩
theorem subOut : (opsOut : List (HloOp τ sig (Elt F))).Forall fun op => op.bufs ⊆ tcRefs τ sig :=
  ⟨nullary_bufs_sub .., binary_bufs_sub .., unary_bufs_sub .., unary_bufs_sub .., binary_bufs_sub .., binary_bufs_sub ..⟩

theorem ops_sub : (ops : List (HloOp τ sig (Elt F))).Forall fun op => op.bufs ⊆ tcRefs τ sig :=
  forall_append subProj (forall_append subScores (forall_append subMask (forall_append subExp subOut)))

/-! ## The line read back, one stretch at a time

Each stretch writes a few buffers that later stretches read; what it leaves in them is the stage's function of what
it found in the buffers it reads, and it leaves the buffers it does not write as it found them. -/

theorem proj_q (W : Valuation τ sig (Elt F)) : after opsProj W (main_v3 : DevRef τ sig)
    = Stages.proj (W (main_arg1 : DevRef τ sig)) (W (main_arg2 : DevRef τ sig)) (W (main_arg3 : DevRef τ sig)) := by
  after_results
  unfold Stages.proj
  rfl

theorem proj_k (W : Valuation τ sig (Elt F)) : after opsProj W (main_v7 : DevRef τ sig)
    = Stages.proj (W (main_arg0 : DevRef τ sig)) (W (main_arg4 : DevRef τ sig)) (W (main_arg5 : DevRef τ sig)) := by
  after_results
  unfold Stages.proj
  rfl

theorem proj_v (W : Valuation τ sig (Elt F)) : after opsProj W (main_v11 : DevRef τ sig)
    = Stages.proj (W (main_arg0 : DevRef τ sig)) (W (main_arg6 : DevRef τ sig)) (W (main_arg7 : DevRef τ sig)) := by
  after_results
  unfold Stages.proj
  rfl

theorem scores_read (W : Valuation τ sig (Elt F)) : after opsScores W (main_v16 : DevRef τ sig)
    = Stages.scores (W (main_v3 : DevRef τ sig)) (W (main_v7 : DevRef τ sig)) := by
  after_results
  unfold Stages.scores Stages.scale
  rfl

theorem scores_keep (W : Valuation τ sig (Elt F)) : after opsScores W (main_v11 : DevRef τ sig) = W (main_v11 : DevRef τ sig) :=
  after_of_forall_not_mem _ _ (List.forall_iff_forall_mem.mp (by
    simp only [List.Forall, TRef.nullary, TRef.unary, TRef.binary, TRef.ternary, nullary_writes, unary_writes, binary_writes, ternary_writes, Finset.mem_singleton]
    repeat' apply And.intro
    all_goals exact devRef_ne_of_ne (by decide)))

theorem mask_read (W : Valuation τ sig (Elt F)) : after opsMask W (main_v17 : DevRef τ sig)
    = Stages.masked (W (main_v16 : DevRef τ sig)) := by
  after_results
  repeat (first | rw [TRef.ofBuf_self] | rw [TRef.toBuf_self])
  unfold Stages.masked Stages.lower
  rfl

theorem mask_keep (W : Valuation τ sig (Elt F)) : after opsMask W (main_v11 : DevRef τ sig) = W (main_v11 : DevRef τ sig) :=
  after_of_forall_not_mem _ _ (List.forall_iff_forall_mem.mp (by
    simp only [List.Forall, TRef.nullary, TRef.unary, TRef.binary, TRef.ternary, nullary_writes, unary_writes, binary_writes, ternary_writes, Finset.mem_singleton]
    repeat' apply And.intro
    all_goals exact devRef_ne_of_ne (by decide)))

theorem exp_read (W : Valuation τ sig (Elt F)) : after opsExp W (main_v24 : DevRef τ sig)
    = Stages.expd (W (main_v17 : DevRef τ sig)) := by
  after_results
  unfold Stages.expd
  rfl

theorem exp_keep (W : Valuation τ sig (Elt F)) : after opsExp W (main_v11 : DevRef τ sig) = W (main_v11 : DevRef τ sig) :=
  after_of_forall_not_mem _ _ (List.forall_iff_forall_mem.mp (by
    simp only [List.Forall, TRef.nullary, TRef.unary, TRef.binary, TRef.ternary, nullary_writes, unary_writes, binary_writes, ternary_writes, Finset.mem_singleton]
    repeat' apply And.intro
    all_goals exact devRef_ne_of_ne (by decide)))

theorem out_read (W : Valuation τ sig (Elt F)) : after opsOut W (main_v29 : DevRef τ sig)
    = Stages.weighted (W (main_v24 : DevRef τ sig)) (W (main_v11 : DevRef τ sig)) := by
  after_results
  unfold Stages.weighted
  rfl

/-- The result buffer after the whole line: the stages composed, over the launch contents of the arguments. -/
theorem out_eq (V : Valuation τ sig (Elt F)) : after ops V (main_v29 : DevRef τ sig)
    = Stages.refOut (V (main_arg0 : DevRef τ sig)) (V (main_arg1 : DevRef τ sig)) (V (main_arg2 : DevRef τ sig)) (V (main_arg3 : DevRef τ sig))
        (V (main_arg4 : DevRef τ sig)) (V (main_arg5 : DevRef τ sig)) (V (main_arg6 : DevRef τ sig)) (V (main_arg7 : DevRef τ sig)) := by
  show after (opsProj ++ (opsScores ++ (opsMask ++ (opsExp ++ opsOut)))) V _ = _
  rw [after_append, after_append, after_append, after_append, out_read, exp_read, exp_keep, mask_read, mask_keep,
    scores_read, scores_keep, proj_q, proj_k, proj_v]
  unfold Stages.refOut
  rfl

/-! ## The arguments are never written -/

theorem wProj0 : (opsProj : List (HloOp τ sig (Elt F))).Forall fun op => (main_arg0 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wScores0 : (opsScores : List (HloOp τ sig (Elt F))).Forall fun op => (main_arg0 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wMask0 : (opsMask : List (HloOp τ sig (Elt F))).Forall fun op => (main_arg0 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wExp0 : (opsExp : List (HloOp τ sig (Elt F))).Forall fun op => (main_arg0 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wOut0 : (opsOut : List (HloOp τ sig (Elt F))).Forall fun op => (main_arg0 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem arg0_keep (V : Valuation τ sig (Elt F)) : after ops V (main_arg0 : DevRef τ sig) = V (main_arg0 : DevRef τ sig) :=
  after_of_forall_not_mem _ _ (List.forall_iff_forall_mem.mp
    (forall_append wProj0 (forall_append wScores0 (forall_append wMask0 (forall_append wExp0 wOut0)))))

theorem wProj1 : (opsProj : List (HloOp τ sig (Elt F))).Forall fun op => (main_arg1 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wScores1 : (opsScores : List (HloOp τ sig (Elt F))).Forall fun op => (main_arg1 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wMask1 : (opsMask : List (HloOp τ sig (Elt F))).Forall fun op => (main_arg1 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wExp1 : (opsExp : List (HloOp τ sig (Elt F))).Forall fun op => (main_arg1 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wOut1 : (opsOut : List (HloOp τ sig (Elt F))).Forall fun op => (main_arg1 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem arg1_keep (V : Valuation τ sig (Elt F)) : after ops V (main_arg1 : DevRef τ sig) = V (main_arg1 : DevRef τ sig) :=
  after_of_forall_not_mem _ _ (List.forall_iff_forall_mem.mp
    (forall_append wProj1 (forall_append wScores1 (forall_append wMask1 (forall_append wExp1 wOut1)))))

theorem wProj2 : (opsProj : List (HloOp τ sig (Elt F))).Forall fun op => (main_arg2 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wScores2 : (opsScores : List (HloOp τ sig (Elt F))).Forall fun op => (main_arg2 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wMask2 : (opsMask : List (HloOp τ sig (Elt F))).Forall fun op => (main_arg2 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wExp2 : (opsExp : List (HloOp τ sig (Elt F))).Forall fun op => (main_arg2 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wOut2 : (opsOut : List (HloOp τ sig (Elt F))).Forall fun op => (main_arg2 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem arg2_keep (V : Valuation τ sig (Elt F)) : after ops V (main_arg2 : DevRef τ sig) = V (main_arg2 : DevRef τ sig) :=
  after_of_forall_not_mem _ _ (List.forall_iff_forall_mem.mp
    (forall_append wProj2 (forall_append wScores2 (forall_append wMask2 (forall_append wExp2 wOut2)))))

theorem wProj3 : (opsProj : List (HloOp τ sig (Elt F))).Forall fun op => (main_arg3 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wScores3 : (opsScores : List (HloOp τ sig (Elt F))).Forall fun op => (main_arg3 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wMask3 : (opsMask : List (HloOp τ sig (Elt F))).Forall fun op => (main_arg3 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wExp3 : (opsExp : List (HloOp τ sig (Elt F))).Forall fun op => (main_arg3 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wOut3 : (opsOut : List (HloOp τ sig (Elt F))).Forall fun op => (main_arg3 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem arg3_keep (V : Valuation τ sig (Elt F)) : after ops V (main_arg3 : DevRef τ sig) = V (main_arg3 : DevRef τ sig) :=
  after_of_forall_not_mem _ _ (List.forall_iff_forall_mem.mp
    (forall_append wProj3 (forall_append wScores3 (forall_append wMask3 (forall_append wExp3 wOut3)))))

theorem wProj4 : (opsProj : List (HloOp τ sig (Elt F))).Forall fun op => (main_arg4 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wScores4 : (opsScores : List (HloOp τ sig (Elt F))).Forall fun op => (main_arg4 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wMask4 : (opsMask : List (HloOp τ sig (Elt F))).Forall fun op => (main_arg4 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wExp4 : (opsExp : List (HloOp τ sig (Elt F))).Forall fun op => (main_arg4 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wOut4 : (opsOut : List (HloOp τ sig (Elt F))).Forall fun op => (main_arg4 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem arg4_keep (V : Valuation τ sig (Elt F)) : after ops V (main_arg4 : DevRef τ sig) = V (main_arg4 : DevRef τ sig) :=
  after_of_forall_not_mem _ _ (List.forall_iff_forall_mem.mp
    (forall_append wProj4 (forall_append wScores4 (forall_append wMask4 (forall_append wExp4 wOut4)))))

theorem wProj5 : (opsProj : List (HloOp τ sig (Elt F))).Forall fun op => (main_arg5 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wScores5 : (opsScores : List (HloOp τ sig (Elt F))).Forall fun op => (main_arg5 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wMask5 : (opsMask : List (HloOp τ sig (Elt F))).Forall fun op => (main_arg5 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wExp5 : (opsExp : List (HloOp τ sig (Elt F))).Forall fun op => (main_arg5 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wOut5 : (opsOut : List (HloOp τ sig (Elt F))).Forall fun op => (main_arg5 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem arg5_keep (V : Valuation τ sig (Elt F)) : after ops V (main_arg5 : DevRef τ sig) = V (main_arg5 : DevRef τ sig) :=
  after_of_forall_not_mem _ _ (List.forall_iff_forall_mem.mp
    (forall_append wProj5 (forall_append wScores5 (forall_append wMask5 (forall_append wExp5 wOut5)))))

theorem wProj6 : (opsProj : List (HloOp τ sig (Elt F))).Forall fun op => (main_arg6 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wScores6 : (opsScores : List (HloOp τ sig (Elt F))).Forall fun op => (main_arg6 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wMask6 : (opsMask : List (HloOp τ sig (Elt F))).Forall fun op => (main_arg6 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wExp6 : (opsExp : List (HloOp τ sig (Elt F))).Forall fun op => (main_arg6 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wOut6 : (opsOut : List (HloOp τ sig (Elt F))).Forall fun op => (main_arg6 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem arg6_keep (V : Valuation τ sig (Elt F)) : after ops V (main_arg6 : DevRef τ sig) = V (main_arg6 : DevRef τ sig) :=
  after_of_forall_not_mem _ _ (List.forall_iff_forall_mem.mp
    (forall_append wProj6 (forall_append wScores6 (forall_append wMask6 (forall_append wExp6 wOut6)))))

theorem wProj7 : (opsProj : List (HloOp τ sig (Elt F))).Forall fun op => (main_arg7 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wScores7 : (opsScores : List (HloOp τ sig (Elt F))).Forall fun op => (main_arg7 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wMask7 : (opsMask : List (HloOp τ sig (Elt F))).Forall fun op => (main_arg7 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wExp7 : (opsExp : List (HloOp τ sig (Elt F))).Forall fun op => (main_arg7 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem wOut7 : (opsOut : List (HloOp τ sig (Elt F))).Forall fun op => (main_arg7 : DevRef τ sig) ∉ op.writes := by
  simp only [List.Forall, TRef.nullary, TRef.unary, TRef.binary, TRef.ternary, nullary_writes, unary_writes, binary_writes, ternary_writes, Finset.mem_singleton]
  repeat' apply And.intro
  all_goals exact devRef_ne_of_ne (by decide)
theorem arg7_keep (V : Valuation τ sig (Elt F)) : after ops V (main_arg7 : DevRef τ sig) = V (main_arg7 : DevRef τ sig) :=
  after_of_forall_not_mem _ _ (List.forall_iff_forall_mem.mp
    (forall_append wProj7 (forall_append wScores7 (forall_append wMask7 (forall_append wExp7 wOut7)))))

/-- On every device, for any float values, from any memory with zero counters: every weakly fair execution of the
    program terminates with the result at the stages' composition over the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = Stages.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v29).trans (out_eq _),
      (h c main_arg0).trans (arg0_keep _),
      (h c main_arg1).trans (arg1_keep _),
      (h c main_arg2).trans (arg2_keep _),
      (h c main_arg3).trans (arg3_keep _),
      (h c main_arg4).trans (arg4_keep _),
      (h c main_arg5).trans (arg5_keep _),
      (h c main_arg6).trans (arg6_keep _),
      (h c main_arg7).trans (arg7_keep _)⟩)
    (run_seq scopedRefs_eq scopedSems_eq defs main (fun _ => ops) main_eq (fun _ => ops_sub) m ρ)

end Cert.ReferenceIdeal.HandRun

end
-- ==== Proof.ReferenceValue.lean ====
/-
  The reference program's value, read one stage at a time at the ideal values (floats are extended reals), is the
  attention of the specification in its "sum of quotients" arrangement, with the scale `1 / √64`:

    * a projection stage (`dot_general` plus the bias broadcast over batches and rows) is the linear projection;
    * the batched `dot_general` of two projections, times the broadcast scale, under the lower-triangular `select`
      against zero, is the masked scaled score (the mask's bit at `(r, j)` is `1` exactly when `j ≤ r`);
    * the maximum-reduce from `-∞` along the last axis (and the further maximum with `-∞`) is the row's largest
      entry, and the exponential of the difference is the weight;
    * the add-reduce from `0` of the weights is the denominator, their quotient the normalised weight, and the last
      batched `dot_general`, against the values, is the sum of the normalised weights times the values.
-/
import proofs.«108188_j14173392077129_2_alg».proof.Proof.ReferenceStages
import proofs.«108188_j14173392077129_2_alg».proof.Proof.AttentionSpec
import proofs.«108188_j14173392077129_2_alg».proof.Proof.LibRowDots
import Idealize.ShloMosaic.Lib.Affine
import Idealize.ShloMosaic.Lib.IdealHost
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx
  Idealize.ShloMosaic.RowDots

/-- The arrays' types. -/
abbrev TX : Type := FVec Ideal S8x2048x1024 .f32
abbrev TW : Type := FVec Ideal S1024x64 .f32
abbrev TB : Type := FVec Ideal S64 .f32
abbrev TO : Type := FVec Ideal S8x2048x64 .f32
abbrev TS : Type := FVec Ideal S8x2048x2048 .f32
abbrev TR : Type := FVec Ideal S8x2048 .f32

/-! ## The three `dot_general`s read at an index

For each, the operands' indices at a result index and a contraction position, coordinate by coordinate (a batch or
free axis carries the result's coordinate, the contracted axis the contraction position's one coordinate), and then
the sum over the contraction re-indexed by that coordinate. -/

theorem dotA_lhs0 (i : S8x2048x64.Idx) (q : dot_S8x2048x1024_S1024x64_S8x2048x64_2_0_01_1_n_n.contr.Idx) :
    (dot_S8x2048x1024_S1024x64_S8x2048x64_2_0_01_1_n_n.lhsIdx i q 0).val = (i 0).val := by
  unfold DotDims.lhsIdx
  rw [dif_neg (show ¬(0 : Fin S8x2048x1024.rank) ∈ dot_S8x2048x1024_S1024x64_S8x2048x64_2_0_01_1_n_n.lhsBatch by decide),
    dif_pos (show (0 : Fin S8x2048x1024.rank) ∈ dot_S8x2048x1024_S1024x64_S8x2048x64_2_0_01_1_n_n.lhsNonContracting by decide)]
  rfl
theorem dotA_lhs1 (i : S8x2048x64.Idx) (q : dot_S8x2048x1024_S1024x64_S8x2048x64_2_0_01_1_n_n.contr.Idx) :
    (dot_S8x2048x1024_S1024x64_S8x2048x64_2_0_01_1_n_n.lhsIdx i q 1).val = (i 1).val := by
  unfold DotDims.lhsIdx
  rw [dif_neg (show ¬(1 : Fin S8x2048x1024.rank) ∈ dot_S8x2048x1024_S1024x64_S8x2048x64_2_0_01_1_n_n.lhsBatch by decide),
    dif_pos (show (1 : Fin S8x2048x1024.rank) ∈ dot_S8x2048x1024_S1024x64_S8x2048x64_2_0_01_1_n_n.lhsNonContracting by decide)]
  rfl
theorem dotA_lhs2 (i : S8x2048x64.Idx) (q : dot_S8x2048x1024_S1024x64_S8x2048x64_2_0_01_1_n_n.contr.Idx) :
    (dot_S8x2048x1024_S1024x64_S8x2048x64_2_0_01_1_n_n.lhsIdx i q 2).val = (q ⟨0, by decide⟩).val :=
  dot_S8x2048x1024_S1024x64_S8x2048x64_2_0_01_1_n_n.lhsIdx_val_of_single rfl i q
theorem dotA_rhs0 (i : S8x2048x64.Idx) (q : dot_S8x2048x1024_S1024x64_S8x2048x64_2_0_01_1_n_n.contr.Idx) :
    (dot_S8x2048x1024_S1024x64_S8x2048x64_2_0_01_1_n_n.rhsIdx i q 0).val = (q ⟨0, by decide⟩).val :=
  dot_S8x2048x1024_S1024x64_S8x2048x64_2_0_01_1_n_n.rhsIdx_val_of_single rfl i q
theorem dotA_rhs1 (i : S8x2048x64.Idx) (q : dot_S8x2048x1024_S1024x64_S8x2048x64_2_0_01_1_n_n.contr.Idx) :
    (dot_S8x2048x1024_S1024x64_S8x2048x64_2_0_01_1_n_n.rhsIdx i q 1).val = (i 2).val := by
  unfold DotDims.rhsIdx
  rw [dif_neg (show ¬(1 : Fin S1024x64.rank) ∈ dot_S8x2048x1024_S1024x64_S8x2048x64_2_0_01_1_n_n.rhsBatch by decide),
    dif_pos (show (1 : Fin S1024x64.rank) ∈ dot_S8x2048x1024_S1024x64_S8x2048x64_2_0_01_1_n_n.rhsNonContracting by decide)]
  rfl

/-- A projection's `dot_general` at `(n, r, h)`: row `r` of batch `n` against column `h` of the weights. -/
theorem dotA_apply (l : TX) (r' : TW) (n : Fin 8) (r : Fin 2048) (h : Fin 64) :
    Host.dotGeneral (F := Ideal) dot_S8x2048x1024_S1024x64_S8x2048x64_2_0_01_1_n_n none l r' (ix3 n r h) = ∑ k : Fin 1024, l (ix3 n r k) * r' (ix2 k h) := by
  simp only [Host.dotGeneral]
  rw [Ideal.dotGeneral_apply, ← Equiv.sum_comp (contrEquiv1 dot_S8x2048x1024_S1024x64_S8x2048x64_2_0_01_1_n_n 1024 rfl rfl).symm]
  refine Finset.sum_congr rfl fun k _ => ?_
  have hk := contrEquiv1_symm_val dot_S8x2048x1024_S1024x64_S8x2048x64_2_0_01_1_n_n 1024 rfl rfl k
  have el : dot_S8x2048x1024_S1024x64_S8x2048x64_2_0_01_1_n_n.lhsIdx (ix3 n r h) ((contrEquiv1 dot_S8x2048x1024_S1024x64_S8x2048x64_2_0_01_1_n_n 1024 rfl rfl).symm k) = ix3 n r k :=
    idx3_ext _ _ _ _ (dotA_lhs0 _ _) (dotA_lhs1 _ _) ((dotA_lhs2 _ _).trans hk)
  have er : dot_S8x2048x1024_S1024x64_S8x2048x64_2_0_01_1_n_n.rhsIdx (ix3 n r h) ((contrEquiv1 dot_S8x2048x1024_S1024x64_S8x2048x64_2_0_01_1_n_n 1024 rfl rfl).symm k) = ix2 k h :=
    idx2_ext _ _ _ ((dotA_rhs0 _ _).trans hk) (dotA_rhs1 _ _)
  rw [el, er]

theorem dotB_lhs0 (i : S8x2048x2048.Idx) (q : dot_S8x2048x64_S8x2048x64_S8x2048x2048_2_2_1_1_0_0.contr.Idx) :
    (dot_S8x2048x64_S8x2048x64_S8x2048x2048_2_2_1_1_0_0.lhsIdx i q 0).val = (i 0).val := by
  unfold DotDims.lhsIdx
  rw [dif_pos (show (0 : Fin S8x2048x64.rank) ∈ dot_S8x2048x64_S8x2048x64_S8x2048x2048_2_2_1_1_0_0.lhsBatch by decide)]
  rfl
theorem dotB_lhs1 (i : S8x2048x2048.Idx) (q : dot_S8x2048x64_S8x2048x64_S8x2048x2048_2_2_1_1_0_0.contr.Idx) :
    (dot_S8x2048x64_S8x2048x64_S8x2048x2048_2_2_1_1_0_0.lhsIdx i q 1).val = (i 1).val := by
  unfold DotDims.lhsIdx
  rw [dif_neg (show ¬(1 : Fin S8x2048x64.rank) ∈ dot_S8x2048x64_S8x2048x64_S8x2048x2048_2_2_1_1_0_0.lhsBatch by decide),
    dif_pos (show (1 : Fin S8x2048x64.rank) ∈ dot_S8x2048x64_S8x2048x64_S8x2048x2048_2_2_1_1_0_0.lhsNonContracting by decide)]
  rfl
theorem dotB_lhs2 (i : S8x2048x2048.Idx) (q : dot_S8x2048x64_S8x2048x64_S8x2048x2048_2_2_1_1_0_0.contr.Idx) :
    (dot_S8x2048x64_S8x2048x64_S8x2048x2048_2_2_1_1_0_0.lhsIdx i q 2).val = (q ⟨0, by decide⟩).val :=
  dot_S8x2048x64_S8x2048x64_S8x2048x2048_2_2_1_1_0_0.lhsIdx_val_of_single rfl i q
theorem dotB_rhs0 (i : S8x2048x2048.Idx) (q : dot_S8x2048x64_S8x2048x64_S8x2048x2048_2_2_1_1_0_0.contr.Idx) :
    (dot_S8x2048x64_S8x2048x64_S8x2048x2048_2_2_1_1_0_0.rhsIdx i q 0).val = (i 0).val := by
  unfold DotDims.rhsIdx
  rw [dif_pos (show (0 : Fin S8x2048x64.rank) ∈ dot_S8x2048x64_S8x2048x64_S8x2048x2048_2_2_1_1_0_0.rhsBatch by decide)]
  rfl
theorem dotB_rhs1 (i : S8x2048x2048.Idx) (q : dot_S8x2048x64_S8x2048x64_S8x2048x2048_2_2_1_1_0_0.contr.Idx) :
    (dot_S8x2048x64_S8x2048x64_S8x2048x2048_2_2_1_1_0_0.rhsIdx i q 1).val = (i 2).val := by
  unfold DotDims.rhsIdx
  rw [dif_neg (show ¬(1 : Fin S8x2048x64.rank) ∈ dot_S8x2048x64_S8x2048x64_S8x2048x2048_2_2_1_1_0_0.rhsBatch by decide),
    dif_pos (show (1 : Fin S8x2048x64.rank) ∈ dot_S8x2048x64_S8x2048x64_S8x2048x2048_2_2_1_1_0_0.rhsNonContracting by decide)]
  rfl
theorem dotB_rhs2 (i : S8x2048x2048.Idx) (q : dot_S8x2048x64_S8x2048x64_S8x2048x2048_2_2_1_1_0_0.contr.Idx) :
    (dot_S8x2048x64_S8x2048x64_S8x2048x2048_2_2_1_1_0_0.rhsIdx i q 2).val = (q ⟨0, by decide⟩).val :=
  dot_S8x2048x64_S8x2048x64_S8x2048x2048_2_2_1_1_0_0.rhsIdx_val_of_single rfl i q

/-- The batched `dot_general` of two `[8, 2048, 64]` arrays along their last axes at `(n, r, j)`: row `r` of the left one against row `j` of the right one, in batch `n`. -/
theorem dotB_apply (l : TO) (r' : TO) (n : Fin 8) (r j : Fin 2048) :
    Host.dotGeneral (F := Ideal) dot_S8x2048x64_S8x2048x64_S8x2048x2048_2_2_1_1_0_0 none l r' (ix3 n r j) = ∑ k : Fin 64, l (ix3 n r k) * r' (ix3 n j k) := by
  simp only [Host.dotGeneral]
  rw [Ideal.dotGeneral_apply, ← Equiv.sum_comp (contrEquiv1 dot_S8x2048x64_S8x2048x64_S8x2048x2048_2_2_1_1_0_0 64 rfl rfl).symm]
  refine Finset.sum_congr rfl fun k _ => ?_
  have hk := contrEquiv1_symm_val dot_S8x2048x64_S8x2048x64_S8x2048x2048_2_2_1_1_0_0 64 rfl rfl k
  have el : dot_S8x2048x64_S8x2048x64_S8x2048x2048_2_2_1_1_0_0.lhsIdx (ix3 n r j) ((contrEquiv1 dot_S8x2048x64_S8x2048x64_S8x2048x2048_2_2_1_1_0_0 64 rfl rfl).symm k) = ix3 n r k :=
    idx3_ext _ _ _ _ (dotB_lhs0 _ _) (dotB_lhs1 _ _) ((dotB_lhs2 _ _).trans hk)
  have er : dot_S8x2048x64_S8x2048x64_S8x2048x2048_2_2_1_1_0_0.rhsIdx (ix3 n r j) ((contrEquiv1 dot_S8x2048x64_S8x2048x64_S8x2048x2048_2_2_1_1_0_0 64 rfl rfl).symm k) = ix3 n j k :=
    idx3_ext _ _ _ _ (dotB_rhs0 _ _) (dotB_rhs1 _ _) ((dotB_rhs2 _ _).trans hk)
  rw [el, er]

theorem dotC_lhs0 (i : S8x2048x64.Idx) (q : dot_S8x2048x2048_S8x2048x64_S8x2048x64_2_1_1_2_0_0.contr.Idx) :
    (dot_S8x2048x2048_S8x2048x64_S8x2048x64_2_1_1_2_0_0.lhsIdx i q 0).val = (i 0).val := by
  unfold DotDims.lhsIdx
  rw [dif_pos (show (0 : Fin S8x2048x2048.rank) ∈ dot_S8x2048x2048_S8x2048x64_S8x2048x64_2_1_1_2_0_0.lhsBatch by decide)]
  rfl
theorem dotC_lhs1 (i : S8x2048x64.Idx) (q : dot_S8x2048x2048_S8x2048x64_S8x2048x64_2_1_1_2_0_0.contr.Idx) :
    (dot_S8x2048x2048_S8x2048x64_S8x2048x64_2_1_1_2_0_0.lhsIdx i q 1).val = (i 1).val := by
  unfold DotDims.lhsIdx
  rw [dif_neg (show ¬(1 : Fin S8x2048x2048.rank) ∈ dot_S8x2048x2048_S8x2048x64_S8x2048x64_2_1_1_2_0_0.lhsBatch by decide),
    dif_pos (show (1 : Fin S8x2048x2048.rank) ∈ dot_S8x2048x2048_S8x2048x64_S8x2048x64_2_1_1_2_0_0.lhsNonContracting by decide)]
  rfl
theorem dotC_lhs2 (i : S8x2048x64.Idx) (q : dot_S8x2048x2048_S8x2048x64_S8x2048x64_2_1_1_2_0_0.contr.Idx) :
    (dot_S8x2048x2048_S8x2048x64_S8x2048x64_2_1_1_2_0_0.lhsIdx i q 2).val = (q ⟨0, by decide⟩).val :=
  dot_S8x2048x2048_S8x2048x64_S8x2048x64_2_1_1_2_0_0.lhsIdx_val_of_single rfl i q
theorem dotC_rhs0 (i : S8x2048x64.Idx) (q : dot_S8x2048x2048_S8x2048x64_S8x2048x64_2_1_1_2_0_0.contr.Idx) :
    (dot_S8x2048x2048_S8x2048x64_S8x2048x64_2_1_1_2_0_0.rhsIdx i q 0).val = (i 0).val := by
  unfold DotDims.rhsIdx
  rw [dif_pos (show (0 : Fin S8x2048x64.rank) ∈ dot_S8x2048x2048_S8x2048x64_S8x2048x64_2_1_1_2_0_0.rhsBatch by decide)]
  rfl
theorem dotC_rhs1 (i : S8x2048x64.Idx) (q : dot_S8x2048x2048_S8x2048x64_S8x2048x64_2_1_1_2_0_0.contr.Idx) :
    (dot_S8x2048x2048_S8x2048x64_S8x2048x64_2_1_1_2_0_0.rhsIdx i q 1).val = (q ⟨0, by decide⟩).val :=
  dot_S8x2048x2048_S8x2048x64_S8x2048x64_2_1_1_2_0_0.rhsIdx_val_of_single rfl i q
theorem dotC_rhs2 (i : S8x2048x64.Idx) (q : dot_S8x2048x2048_S8x2048x64_S8x2048x64_2_1_1_2_0_0.contr.Idx) :
    (dot_S8x2048x2048_S8x2048x64_S8x2048x64_2_1_1_2_0_0.rhsIdx i q 2).val = (i 2).val := by
  unfold DotDims.rhsIdx
  rw [dif_neg (show ¬(2 : Fin S8x2048x64.rank) ∈ dot_S8x2048x2048_S8x2048x64_S8x2048x64_2_1_1_2_0_0.rhsBatch by decide),
    dif_pos (show (2 : Fin S8x2048x64.rank) ∈ dot_S8x2048x2048_S8x2048x64_S8x2048x64_2_1_1_2_0_0.rhsNonContracting by decide)]
  rfl

/-- The batched `dot_general` of an `[8, 2048, 2048]` array with an `[8, 2048, 64]` one at `(n, r, h)`: row `r` of the left one against column `h` of the right one, in batch `n`. -/
theorem dotC_apply (l : TS) (r' : TO) (n : Fin 8) (r : Fin 2048) (h : Fin 64) :
    Host.dotGeneral (F := Ideal) dot_S8x2048x2048_S8x2048x64_S8x2048x64_2_1_1_2_0_0 none l r' (ix3 n r h) = ∑ k : Fin 2048, l (ix3 n r k) * r' (ix3 n k h) := by
  simp only [Host.dotGeneral]
  rw [Ideal.dotGeneral_apply, ← Equiv.sum_comp (contrEquiv1 dot_S8x2048x2048_S8x2048x64_S8x2048x64_2_1_1_2_0_0 2048 rfl rfl).symm]
  refine Finset.sum_congr rfl fun k _ => ?_
  have hk := contrEquiv1_symm_val dot_S8x2048x2048_S8x2048x64_S8x2048x64_2_1_1_2_0_0 2048 rfl rfl k
  have el : dot_S8x2048x2048_S8x2048x64_S8x2048x64_2_1_1_2_0_0.lhsIdx (ix3 n r h) ((contrEquiv1 dot_S8x2048x2048_S8x2048x64_S8x2048x64_2_1_1_2_0_0 2048 rfl rfl).symm k) = ix3 n r k :=
    idx3_ext _ _ _ _ (dotC_lhs0 _ _) (dotC_lhs1 _ _) ((dotC_lhs2 _ _).trans hk)
  have er : dot_S8x2048x2048_S8x2048x64_S8x2048x64_2_1_1_2_0_0.rhsIdx (ix3 n r h) ((contrEquiv1 dot_S8x2048x2048_S8x2048x64_S8x2048x64_2_1_1_2_0_0 2048 rfl rfl).symm k) = ix3 n k h :=
    idx3_ext _ _ _ _ (dotC_rhs0 _ _) ((dotC_rhs1 _ _).trans hk) (dotC_rhs2 _ _)
  rw [el, er]

/-! ## Broadcasts read at an index -/

/-- A bias broadcast over batches and rows reads the bias at the column. -/
theorem bias_apply {α : Type} (b : S64.Idx → α) (n : Fin 8) (r : Fin 2048) (h : Fin 64) :
    broadcastInDim S8x2048x64 ![0, 1, 2] bcast_S1x1x64_S8x2048x64_0_1_2 (broadcastInDim S1x1x64 ![2] bcast_S64_S1x1x64_2 b)
      (ix3 n r h) = b (ix1 h) := by
  rw [broadcastInDim_apply _ bcast_S1x1x64_S8x2048x64_0_1_2 _ (ix3 n r h) (ix3 (0 : Fin 1) (0 : Fin 1) h) (fun a => match a with
      | ⟨0, _⟩ => by show 0 = if (1 : Nat) = 1 then 0 else n.val; rw [if_pos rfl]
      | ⟨1, _⟩ => by show 0 = if (1 : Nat) = 1 then 0 else r.val; rw [if_pos rfl]
      | ⟨2, _⟩ => by show h.val = if (64 : Nat) = 1 then 0 else h.val; rw [if_neg (by decide)]),
    broadcastInDim_apply _ bcast_S64_S1x1x64_2 b (ix3 (0 : Fin 1) (0 : Fin 1) h) (ix1 h) (fun a => match a with
      | ⟨0, _⟩ => by show h.val = if (64 : Nat) = 1 then 0 else h.val; rw [if_neg (by decide)])]

/-- A value per (batch, row) broadcast along the row reads the row's value. -/
theorem row_apply {α : Type} (y : S8x2048.Idx → α) (n : Fin 8) (r j : Fin 2048) :
    broadcastInDim S8x2048x2048 ![0, 1, 2] bcast_S8x2048x1_S8x2048x2048_0_1_2
      (broadcastInDim S8x2048x1 ![0, 1] bcast_S8x2048_S8x2048x1_0_1 y) (ix3 n r j) = y (ix2 n r) := by
  rw [broadcastInDim_apply _ bcast_S8x2048x1_S8x2048x2048_0_1_2 _ (ix3 n r j) (ix3 n r (0 : Fin 1)) (fun a => match a with
      | ⟨0, _⟩ => by show n.val = if (8 : Nat) = 1 then 0 else n.val; rw [if_neg (by decide)]
      | ⟨1, _⟩ => by show r.val = if (2048 : Nat) = 1 then 0 else r.val; rw [if_neg (by decide)]
      | ⟨2, _⟩ => by show 0 = if (1 : Nat) = 1 then 0 else j.val; rw [if_pos rfl]),
    broadcastInDim_apply _ bcast_S8x2048_S8x2048x1_0_1 y (ix3 n r (0 : Fin 1)) (ix2 n r) (fun a => match a with
      | ⟨0, _⟩ => by show n.val = if (8 : Nat) = 1 then 0 else n.val; rw [if_neg (by decide)]
      | ⟨1, _⟩ => by show r.val = if (2048 : Nat) = 1 then 0 else r.val; rw [if_neg (by decide)])]

/-- A value per (row, column) broadcast over the batches reads the value at the row and column. -/
theorem batch_apply {α : Type} (c : S2048x2048.Idx → α) (n : Fin 8) (r j : Fin 2048) :
    broadcastInDim S8x2048x2048 ![1, 2] bcast_S2048x2048_S8x2048x2048_1_2 c (ix3 n r j) = c (ix2 r j) :=
  broadcastInDim_apply _ bcast_S2048x2048_S8x2048x2048_1_2 c (ix3 n r j) (ix2 r j) (fun a => match a with
    | ⟨0, _⟩ => by show r.val = if (2048 : Nat) = 1 then 0 else r.val; rw [if_neg (by decide)]
    | ⟨1, _⟩ => by show j.val = if (2048 : Nat) = 1 then 0 else j.val; rw [if_neg (by decide)])

/-! ## The stages read at an index -/

/-- A projection stage at `(n, r, h)` is the specification's projection. -/
theorem proj_apply (x : TX) (W : TW) (b : TB) (n : Fin 8) (r : Fin 2048) (h : Fin 64) :
    Stages.proj (F := Ideal) x W b (ix3 n r h) = Attention.proj x W b n r h := by
  unfold Stages.proj Attention.proj
  rw [addf_apply, dotA_apply, bias_apply]

/-- The scale stage is `1 / √64`. -/
theorem scale_apply (i : S_.Idx) : Stages.scale (F := Ideal) i = Attention.scaleQuot := rfl

/-- The scaled scores at `(n, r, j)`: row `r` of the queries against row `j` of the keys, times the scale. -/
theorem scores_apply (q k : TO) (n : Fin 8) (r j : Fin 2048) :
    Stages.scores (F := Ideal) q k (ix3 n r j)
      = (∑ h : Fin 64, q (ix3 n r h) * k (ix3 n j h)) * Attention.scaleQuot := by
  unfold Stages.scores
  rw [mulf_apply, dotB_apply, broadcastInDim_scalar_apply, scale_apply]

/-- A 32-bit word of a number below 2048 reads, signed, as that number. -/
theorem toInt_small (a : Nat) (ha : a < 2048) : (BitVec.ofNat 32 a).toInt = (a : Int) := by
  rw [BitVec.toInt_eq_toNat_cond, BitVec.toNat_ofNat]
  have : a % 2 ^ 32 = a := Nat.mod_eq_of_lt (by omega)
  rw [this, if_pos (by omega)]

/-- The mask's bit at row `r`, column `j`: the signed comparison `r + 0 ≥ j` of the two coordinates' words holds
    exactly when `j ≤ r`. -/
theorem mask_bit (r j : Fin 2048) :
    IntOp.cmpi .sge (IntOp.addi (BitVec.ofNat 32 r.val) 0#32) (BitVec.ofNat 32 j.val)
      = if j.val ≤ r.val then 1#1 else 0#1 := by
  have hr := toInt_small r.val r.isLt
  have hj := toInt_small j.val j.isLt
  have h0 : IntOp.addi (BitVec.ofNat 32 r.val) 0#32 = BitVec.ofNat 32 r.val := BitVec.add_zero _
  rw [h0]
  by_cases h : j.val ≤ r.val
  · rw [if_pos h]
    exact IntOp.cmpi_sge.mpr (by rw [hr, hj]; exact_mod_cast h)
  · rw [if_neg h]
    exact eq_zero_of_ne_one fun h1 => h (by
      have := IntOp.cmpi_sge.mp h1
      rw [hr, hj] at this
      exact_mod_cast this)

/-- The lower triangle's bit at `(n, r, j)`. -/
theorem lower_apply (n : Fin 8) (r j : Fin 2048) :
    Stages.lower (ix3 n r j) = if j.val ≤ r.val then 1#1 else 0#1 := by
  unfold Stages.lower
  rw [batch_apply]
  exact mask_bit r j

/-- The masked array at `(n, r, j)`: the entry on and below the diagonal, zero above it. -/
theorem masked_apply (s : TS) (n : Fin 8) (r j : Fin 2048) :
    Stages.masked (F := Ideal) s (ix3 n r j) = if j.val ≤ r.val then s (ix3 n r j) else 0 := by
  unfold Stages.masked
  rw [select_apply, lower_apply, broadcastInDim_scalar_apply]
  by_cases h : j.val ≤ r.val
  · rw [if_pos h, if_pos h, select_one]
  · rw [if_neg h, if_neg h, select_zero]
    exact Ideal.ofBits_zero_f32

/-- The masked, scaled scores at `(n, r, j)` are the specification's score. -/
theorem masked_scores_apply (x0 x1 : TX) (x2 : TW) (x3 : TB) (x4 : TW) (x5 : TB) (n : Fin 8) (r j : Fin 2048) :
    Stages.masked (F := Ideal) (Stages.scores (F := Ideal) (Stages.proj (F := Ideal) x1 x2 x3) (Stages.proj (F := Ideal) x0 x4 x5)) (ix3 n r j)
      = Attention.score Attention.scaleQuot (Attention.proj x1 x2 x3 n) (Attention.proj x0 x4 x5 n) r j := by
  have hq : (∑ h : Fin 64, Stages.proj (F := Ideal) x1 x2 x3 (ix3 n r h) * Stages.proj (F := Ideal) x0 x4 x5 (ix3 n j h))
      = ∑ h : Fin 64, Attention.proj x1 x2 x3 n r h * Attention.proj x0 x4 x5 n j h :=
    Finset.sum_congr rfl fun h _ => by rw [proj_apply, proj_apply]
  rw [masked_apply, scores_apply, hq]
  rfl

/-- The word of `-∞` is `⊥`. -/
theorem negInf_eq : Ideal.ofBits .f32 0xFF800000#32 = (⊥ : EReal) := by simp [Ideal.ofBits, Ideal.ieee]

/-- The maximum-reduce from `-∞` along the last axis, and its further maximum with `-∞`, at `(n, r)`: the row's
    largest entry. -/
theorem rowMax_apply (s : TS) (n : Fin 8) (r : Fin 2048) :
    maximumf (F := Ideal) (broadcastInDim S8x2048 ![] bcast_S_S8x2048 (constant (F := Ideal) S_ .f32 0xFF800000#32))
        (Host.reduce FloatOps.maximumf s (constant (F := Ideal) S_ .f32 0xFF800000#32) reducesTo_S8x2048x2048_S8x2048_d2 h_S_)
        (ix2 n r)
      = Attention.rowMax (fun k => s (ix3 n r k)) := by
  rw [maximumf_apply, broadcastInDim_scalar_apply,
    hostReduceMax_last3_apply _ _ reducesTo_S8x2048x2048_S8x2048_d2 (by decide) h_S_ n r]
  show max (Ideal.ofBits .f32 0xFF800000#32)
      (Finset.fold max (Ideal.ofBits .f32 0xFF800000#32) (fun k => s (ix3 n r k)) (Finset.univ : Finset (Fin 2048))) = _
  rw [negInf_eq]
  exact max_eq_right bot_le

/-- The host's exponential at an index is the ideal exponential of the element. -/
theorem hostExp_apply {s : Shape} (x : FVec Ideal s .f32) (i : s.Idx) : Host.exp (F := Ideal) x i = Ideal.exp (x i) := rfl

/-- The exponential stage at `(n, r, j)` is the weight of entry `j` of row `(n, r)`. -/
theorem expd_apply (s : TS) (n : Fin 8) (r j : Fin 2048) :
    Stages.expd (F := Ideal) s (ix3 n r j) = Attention.weight (fun k => s (ix3 n r k)) j := by
  unfold Stages.expd
  rw [hostExp_apply, subf_apply, row_apply, rowMax_apply]
  rfl

/-- The add-reduce from `0` along the last axis at `(n, r)`: the sum of the row. -/
theorem rowSum_apply (p : TS) (n : Fin 8) (r : Fin 2048) :
    Host.reduceAdd (F := Ideal) p (constant (F := Ideal) S_ .f32 0x00000000#32) reducesTo_S8x2048x2048_S8x2048_d2 h_S_ (ix2 n r)
      = ∑ k : Fin 2048, p (ix3 n r k) := by
  rw [hostReduceAdd_apply, Ideal.hostReduceAdd_single reducesTo_S8x2048x2048_S8x2048_d2 (by decide)]
  show Ideal.ofBits .f32 0x00000000#32 + _ = _
  rw [Ideal.ofBits_zero_f32, zero_add]
  exact Finset.sum_congr rfl fun k _ => congrArg p (lift_last3 _ n r k)

/-- The last stage at `(n, r, h)`: the sum over `k` of entry `k` of row `(n, r)` over the row's sum, times the value
    at `(n, k, h)`. -/
theorem weighted_apply (p : TS) (v : TO) (n : Fin 8) (r : Fin 2048) (h : Fin 64) :
    Stages.weighted (F := Ideal) p v (ix3 n r h)
      = ∑ k : Fin 2048, Ideal.div (p (ix3 n r k)) (∑ k' : Fin 2048, p (ix3 n r k')) * v (ix3 n k h) := by
  unfold Stages.weighted
  rw [dotC_apply]
  refine Finset.sum_congr rfl fun k _ => ?_
  rw [hostDivf_apply, row_apply, rowSum_apply]

/-! ## The result -/

/-- The reference program's result is the attention of the specification, the weights normalised first, with the
    scale `1 / √64`. -/
theorem ref_eq (x0 x1 : FVec Ideal S8x2048x1024 .f32) (x2 : FVec Ideal S1024x64 .f32) (x3 : FVec Ideal S64 .f32)
    (x4 : FVec Ideal S1024x64 .f32) (x5 : FVec Ideal S64 .f32) (x6 : FVec Ideal S1024x64 .f32) (x7 : FVec Ideal S64 .f32) :
    Stages.refOut (F := Ideal) x0 x1 x2 x3 x4 x5 x6 x7
      = Attention.attnSumOfQuot Attention.scaleQuot x0 x1 x2 x3 x4 x5 x6 x7 := by
  funext i
  obtain ⟨n, r, h, rfl⟩ : ∃ (n : Fin 8) (r : Fin 2048) (h : Fin 64), i = ix3 n r h := ⟨i 0, i 1, i 2, eq_ix3 i⟩
  have hrow : (fun k : Fin 2048 => Stages.masked (F := Ideal) (Stages.scores (F := Ideal) (Stages.proj (F := Ideal) x1 x2 x3) (Stages.proj (F := Ideal) x0 x4 x5)) (ix3 n r k)) = Attention.scores Attention.scaleQuot x0 x1 x2 x3 x4 x5 n r :=
    funext fun k => masked_scores_apply x0 x1 x2 x3 x4 x5 n r k
  have hw : ∀ k : Fin 2048, Stages.expd (F := Ideal) (Stages.masked (F := Ideal) (Stages.scores (F := Ideal) (Stages.proj (F := Ideal) x1 x2 x3) (Stages.proj (F := Ideal) x0 x4 x5))) (ix3 n r k) = Attention.weight (Attention.scores Attention.scaleQuot x0 x1 x2 x3 x4 x5 n r) k :=
    fun k => by rw [expd_apply, hrow]
  have hd : (∑ k' : Fin 2048, Stages.expd (F := Ideal) (Stages.masked (F := Ideal) (Stages.scores (F := Ideal) (Stages.proj (F := Ideal) x1 x2 x3) (Stages.proj (F := Ideal) x0 x4 x5))) (ix3 n r k')) = Attention.denom (Attention.scores Attention.scaleQuot x0 x1 x2 x3 x4 x5 n r) :=
    Finset.sum_congr rfl fun k _ => hw k
  unfold Stages.refOut
  rw [weighted_apply, hd]
  show _ = ∑ k : Fin 2048,
    Ideal.div (Attention.weight (Attention.scores Attention.scaleQuot x0 x1 x2 x3 x4 x5 n r) k) (Attention.denom (Attention.scores Attention.scaleQuot x0 x1 x2 x3 x4 x5 n r)) * Attention.proj x0 x6 x7 n k h
  refine Finset.sum_congr rfl fun k _ => ?_
  rw [hw k, proj_apply]

end Cert.ReferenceIdeal.RefValue

end
-- ==== Proof.FiniteInputs.lean ====
/-
  From the precondition to real entries.

  The precondition computes, for each of the eight argument arrays, the test "every |entry| compares below +∞"
  (a reduction by conjunction over all axes) and conjoins the eight results. When the result is 1, each of the eight
  tests is 1, and a test that is 1 makes every entry of its array a real: an extended real whose absolute value is
  below +∞ is neither infinity.
-/
import proofs.«108188_j14173392077129_2_alg».proof.Pre_finite_inputs
import proofs.«108188_j14173392077129_2_alg».proof.Proof.LibFiniteEntries

noncomputable section

namespace Cert.FiniteInputs

open Idealize.ShloMosaic Idealize.ShloMosaic.ValueIdx Cert.Pre_finite_inputs

/-- The precondition is the conjunction of eight tests "every |entry| is below +∞", one per argument array:
    being all ones, it makes every entry of every argument a real. -/
theorem real_of_pre [Cert.Pre_finite_inputs.Facts]
    (a0 a1 : FVec Ideal S8x2048x1024 .f32) (a2 : FVec Ideal S1024x64 .f32) (a3 : FVec Ideal S64 .f32)
    (a4 : FVec Ideal S1024x64 .f32) (a5 : FVec Ideal S64 .f32) (a6 : FVec Ideal S1024x64 .f32)
    (a7 : FVec Ideal S64 .f32)
    (h : Cert.Pre_finite_inputs.fn (F := Ideal) a0 a1 a2 a3 a4 a5 a6 a7 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r)
      ∧ (∀ i, ∃ r : ℝ, a7 i = r) := by
  have h0 := congrFun h ValueIdx.ix0
  dsimp only [Cert.Pre_finite_inputs.fn, Cert.Pre_finite_inputs.fn_part1, Cert.Pre_finite_inputs.fn_part2,
    Idealize.ShloMosaic.andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨FiniteEntries.real_of_all a0 _ _ _ _ e0, FiniteEntries.real_of_all a1 _ _ _ _ e1,
    FiniteEntries.real_of_all a2 _ _ _ _ e2, FiniteEntries.real_of_all a3 _ _ _ _ e3,
    FiniteEntries.real_of_all a4 _ _ _ _ e4, FiniteEntries.real_of_all a5 _ _ _ _ e5,
    FiniteEntries.real_of_all a6 _ _ _ _ e6, FiniteEntries.real_of_all a7 _ _ _ _ e7⟩

end Cert.FiniteInputs

end
-- ==== Proof.lean ====
/-
  Fused single-head attention against its plain reference, over the extended reals.

  Both programs compute, for a batch `n`, a query row `r` and a head column `h`, from the projections
  q = y·Wq + bq, k = x·Wk + bk, v = x·Wv + bv: the scores s r j = (Σ_h q r h · k j h) · c kept for j ≤ r and set to 0
  above the diagonal (zeroed, not sent to -∞, so the masked keys still weigh exp (0 − max) in the denominator), the
  weights w r j = exp (s r j − max_j s r j) and their sum l r. The kernel, which works one tile of 256 query rows at a
  time over keys and values it projects once per batch and carries across the tiles, writes (Σ_j w r j · v j h) / l r
  with c the constant 1/8; the reference writes Σ_j (w r j / l r) · v j h with c = 1 / √64. The two scales are the same
  number, and the two arrangements agree because every entry is a real and l r, a sum of exponentials, is a positive
  real: that is where the precondition (every input finite) is used.

  The three frames are the programs' runs with the results dropped; the idealization rewrote nothing.
-/
import proofs.«108188_j14173392077129_2_alg».proof.Defs
import proofs.«108188_j14173392077129_2_alg».proof.Proof.Gen.Kernel
import proofs.«108188_j14173392077129_2_alg».proof.Proof.Gen.Kernel.Skeleton
import proofs.«108188_j14173392077129_2_alg».proof.Proof.Gen.Kernel.Launch
import proofs.«108188_j14173392077129_2_alg».proof.Proof.Gen.Kernel.Points
import proofs.«108188_j14173392077129_2_alg».proof.Proof.Gen.Kernel.Frame
import proofs.«108188_j14173392077129_2_alg».proof.Proof.Gen.KernelIdeal
import proofs.«108188_j14173392077129_2_alg».proof.Proof.Gen.KernelIdeal.Skeleton
import proofs.«108188_j14173392077129_2_alg».proof.Proof.Gen.KernelIdeal.Launch
import proofs.«108188_j14173392077129_2_alg».proof.Proof.Gen.KernelIdeal.Points
import proofs.«108188_j14173392077129_2_alg».proof.Proof.Gen.KernelIdeal.Frame
import proofs.«108188_j14173392077129_2_alg».proof.Proof.Gen.ReferenceIdeal
import proofs.«108188_j14173392077129_2_alg».proof.Proof.Gen.Pre_finite_inputs
import proofs.«108188_j14173392077129_2_alg».proof.Proof.Gen.KernelIdeal.Value
import proofs.«108188_j14173392077129_2_alg».proof.Proof.KernelValue
import proofs.«108188_j14173392077129_2_alg».proof.Proof.ReferenceRun
import proofs.«108188_j14173392077129_2_alg».proof.Proof.ReferenceValue
import proofs.«108188_j14173392077129_2_alg».proof.Proof.AttentionLaw
import proofs.«108188_j14173392077129_2_alg».proof.Proof.FiniteInputs
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.HandRun.run (F := Ideal) m ρ)

/-- From memories that agree on the arguments, the kernel's result array (the quotient of the weighted sum, scale 1/8)
    and the reference's (the sum weighted by the quotients, scale 1 / √64) are one array: the scales are equal, and
    with every argument entry a real the two arrangements are. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.HandRun.run (F := Ideal) m' ρ')
  obtain ⟨g0, g1, g2, g3, g4, g5, g6, g7⟩ := hagree c
  obtain ⟨h0, h1, h2, h3, h4, h5, h6, h7⟩ := Cert.FiniteInputs.real_of_pre _ _ _ _ _ _ _ _ (hpre c)
  rw [Cert.ReferenceIdeal.RefValue.ref_eq, g0, g1, g2, g3, g4, g5, g6, g7, ← Attention.scale_eq]
  exact (Attention.attn_eq Attention.scaleWord ⟨1 / 8, Attention.scaleWord_eq⟩ _ _ _ _ _ _ _ _ h0 h1 h2 h3 h4 h5 h6 h7).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
